-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x33 : Shape := ⟨2, ![128, 33]⟩
abbrev S33 : Shape := ⟨1, ![33]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x33 : S_.BroadcastsInDim S128x33 (![] : Fin 0 → Fin S128x33.rank)
  reducesTo_S128x33_S_d0_1 : S128x33.ReducesTo [0, 1] S_
  bcast_S_S33 : S_.BroadcastsInDim S33 (![] : Fin 0 → Fin S33.rank)
  reducesTo_S33_S_d0 : S33.ReducesTo [0] S_

variable [Facts]

def fn_part1 {F : FTy → Type} [FloatOps F] (main_arg5 : FVec F S33 .f32) (main_v13 : IVec S_ 1) (main_v16 : IVec S128x33 1) : IVec S_ 1 :=
  let main_c_5 : IVec S_ 1 := constantI S_ 1 1#1
  let main_v17 : IVec S_ 1 := (fun x v => Host.reduce IntOp.andi x v reducesTo_S128x33_S_d0_1 h_S_) main_v16 main_c_5
  let main_v18 : IVec S_ 1 := andi main_v13 main_v17
  let main_v19 : FVec F S33 .f32 := Host.absf main_arg5
  let main_cst_6 : FVec F S_ .f32 := constant S_ .f32 0x7F800000#32
  let main_v20 : FVec F S33 .f32 := broadcastInDim S33 ![] bcast_S_S33 main_cst_6
  let main_v21 : IVec S33 1 := cmpf .olt main_v19 main_v20
  let main_c_7 : IVec S_ 1 := constantI S_ 1 1#1
  let main_v22 : IVec S_ 1 := (fun x v => Host.reduce IntOp.andi x v reducesTo_S33_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x33 .f32) (main_arg5 : FVec F S33 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x33 .f32 := Host.absf main_arg4
  let main_cst_4 : FVec F S_ .f32 := constant S_ .f32 0x7F800000#32
  let main_v15 : FVec F S128x33 .f32 := broadcastInDim S128x33 ![] bcast_S_S128x33 main_cst_4
  let main_v16 : IVec S128x33 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x33 : Shape := ⟨2, ![128, 33]⟩
abbrev S33 : Shape := ⟨1, ![33]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x33 : Shape := ⟨2, ![100000, 33]⟩
abbrev S10000x33 : Shape := ⟨2, ![10000, 33]⟩
abbrev S1700000x33 : Shape := ⟨2, ![1700000, 33]⟩
abbrev S1x33 : Shape := ⟨2, ![1, 33]⟩
abbrev S10000 : Shape := ⟨1, ![10000]⟩
abbrev S10000x1 : Shape := ⟨2, ![10000, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x33, .f32⟩
  | .hbm, ⟨5, _⟩ => ⟨S33, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x256, .bf16⟩
  | .hbm, ⟨48, _⟩ => ⟨S256x128, .bf16⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .bf16⟩
  | .hbm, ⟨67, _⟩ => ⟨S128x33, .bf16⟩
  | .hbm, ⟨68, _⟩ => ⟨S100000x33, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x33, .f32⟩
  | .hbm, ⟨78, _⟩ => ⟨S1700000x33, .f32⟩
  | .hbm, ⟨79, _⟩ => ⟨S1700000x33, .f32⟩
  | .hbm, ⟨80, _⟩ => ⟨S_, .f32⟩
  | .hbm, ⟨81, _⟩ => ⟨S100000x33, .f32⟩
  | .hbm, ⟨82, _⟩ => ⟨S1700000x1, .i32⟩
  | .hbm, ⟨83, _⟩ => ⟨S100000x33, .f32⟩
  | .hbm, ⟨84, _⟩ => ⟨S1x33, .f32⟩
  | .hbm, ⟨85, _⟩ => ⟨S100000x33, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S128x33, .bf16⟩
  | .local _ .vmem, ⟨13, _⟩ => ⟨S10000x33, .f32⟩
  | .local _ .vmem, ⟨14, _⟩ => ⟨S10000x33, .f32⟩
  | .local _ .vmem, ⟨15, _⟩ => ⟨S10000x33, .f32⟩
  | .local _ .vmem, ⟨16, _⟩ => ⟨S10000x33, .f32⟩
  | .local _ .vmem, ⟨17, _⟩ => ⟨S1x33, .f32⟩
  | .local _ .vmem, ⟨18, _⟩ => ⟨S10000x33, .f32⟩
  | .local _ .vmem, ⟨19, _⟩ => ⟨S10000x33, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x33 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x33 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x33 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x33 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x33 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S128x33_S128x33_0_0 : ∀ a, (![0, 0] : Fin 2 → Nat) a + S128x33.size a ≤ S128x33.size a
  h_S128x33 : 0 < S128x33.numel
  shapeCasts_S128x33_S128x33 : S128x33.ShapeCasts S128x33
  inb_S10000x33_S10000x33_0_0 : ∀ a, (![0, 0] : Fin 2 → Nat) a + S10000x33.size a ≤ S10000x33.size a
  h_S10000x33 : 0 < S10000x33.numel
  bcast_S1700000x1_S1700000x33_0_1 : S1700000x1.BroadcastsInDim S1700000x33 (![0, 1] : Fin 2 → Fin S1700000x33.rank)
  bcast_S_S100000x33 : S_.BroadcastsInDim S100000x33 (![] : Fin 0 → Fin S100000x33.rank)
  shapeCasts_S33_S1x33 : S33.ShapeCasts S1x33
  shapeCasts_S10000x33_S10000x33 : S10000x33.ShapeCasts S10000x33
  inb_S1x33_S1x33_0_0 : ∀ a, (![0, 0] : Fin 2 → Nat) a + S1x33.size a ≤ S1x33.size a
  h_S1x33 : 0 < S1x33.numel
  shapeCasts_S1x33_S1x33 : S1x33.ShapeCasts S1x33
  broadcasts_S1x33_S10000x33 : S1x33.Broadcasts S10000x33
  reduces_S10000x33_S10000 : S10000x33.Reduces [1] S10000
  shapeCasts_S10000_S10000x1 : S10000.ShapeCasts S10000x1
  broadcasts_S10000x1_S10000x33 : S10000x1.Broadcasts S10000x33
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x33_S10000x33_1_0_0_1_n_n_wf : DotDims.WF S10000x128 S128x33 S10000x33 [1] [0] [0] [1] [] []
  gather_S100000x33_S1700000x1_S1700000x33_1_0_n_n_0_1_133_wf : GatherDims.WF S100000x33 S1700000x1 S1700000x33 [1] [0] [] [0] [] 1 ![1, 33]
  scatter_S100000x33_S1700000x1_S1700000x33_1_0_0_1_wf : ScatterDims.WF S100000x33 S1700000x1 S1700000x33 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .bf16 = 32 ∨ (Rect.block (s := S100000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x33.size a ≤ S128x33.size a
  hwx2_1 : ∀ i : grid2.Coords, EltTy.bits .bf16 = 32 ∨ (Rect.block (s := S128x33) S128x33.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x33.size a ≤ S100000x33.size a
  hwx2_2 : ∀ i : grid2.Coords, EltTy.bits .f32 = 32 ∨ (Rect.block (s := S100000x33) S10000x33.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x33.size a ≤ S100000x33.size a
  hwx3_0 : ∀ i : grid3.Coords, EltTy.bits .f32 = 32 ∨ (Rect.block (s := S100000x33) S10000x33.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x33.size a ≤ S1x33.size a
  hwx3_1 : ∀ i : grid3.Coords, EltTy.bits .f32 = 32 ∨ (Rect.block (s := S1x33) S1x33.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x33.size a ≤ S100000x33.size a
  hwx3_2 : ∀ i : grid3.Coords, EltTy.bits .f32 = 32 ∨ (Rect.block (s := S100000x33) S10000x33.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x33_S10000x33_1_0_0_1_n_n : DotDims S10000x128 S128x33 S10000x33 where
  lhsContracting := [1]
  rhsContracting := [0]
  lhsNonContracting := [0]
  rhsNonContracting := [1]
  lhsBatch := []
  rhsBatch := []
  wf := dot_S10000x128_S128x33_S10000x33_1_0_0_1_n_n_wf
def gather_S100000x33_S1700000x1_S1700000x33_1_0_n_n_0_1_133 : GatherDims S100000x33 S1700000x1 S1700000x33 where
  offsetDims := [1]
  collapsedSliceDims := [0]
  operandBatchingDims := []
  startIndicesBatchingDims := []
  startIndexMap := [0]
  indexVectorDim := 1
  sliceSizes := ![1, 33]
  wf := gather_S100000x33_S1700000x1_S1700000x33_1_0_n_n_0_1_133_wf
def scatter_S100000x33_S1700000x1_S1700000x33_1_0_0_1 : ScatterDims S100000x33 S1700000x1 S1700000x33 where
  updateWindowDims := [1]
  insertedWindowDims := [0]
  scatterDimsToOperandDims := [0]
  indexVectorDim := 1
  wf := scatter_S100000x33_S1700000x1_S1700000x33_1_0_0_1_wf

abbrev win0_0 : Pipeline.Window sig grid0 :=
  Pipeline.Window.ofSpec (Memref.whole main_v31) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x33.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x33.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x33.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x33.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x33.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x33 : Shape := ⟨2, ![128, 33]⟩
abbrev S33 : Shape := ⟨1, ![33]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x33 : Shape := ⟨2, ![100000, 33]⟩
abbrev S1700000x33 : Shape := ⟨2, ![1700000, 33]⟩
abbrev S1x33 : Shape := ⟨2, ![1, 33]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x33, .f32⟩
  | 5 => ⟨S33, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x33, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x33, .f32⟩
  | 119 => ⟨S1700000x1, .f32⟩
  | 120 => ⟨S1700000x33, .f32⟩
  | 121 => ⟨S1700000x33, .f32⟩
  | 122 => ⟨S_, .f32⟩
  | 123 => ⟨S100000x33, .f32⟩
  | 124 => ⟨S1700000x1, .i32⟩
  | 125 => ⟨S100000x33, .f32⟩
  | 126 => ⟨S1x33, .f32⟩
  | 127 => ⟨S100000x33, .f32⟩
  | _ => ⟨S100000x256, .f32⟩

abbrev hbmTy0_1 (i : Nat) : BufTy := match i % 128 with
  | 0 => ⟨S100000x33, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x33, .f32⟩
  | 8 => ⟨S100000x33, .f32⟩
  | 9 => ⟨S100000x33, .f32⟩
  | 10 => ⟨S_, .f32⟩
  | 11 => ⟨S100000, .f32⟩
  | 12 => ⟨S100000x1, .f32⟩
  | 13 => ⟨S100000x1, .f32⟩
  | 14 => ⟨S100000x33, .f32⟩
  | 15 => ⟨S100000x33, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x33_0_1 : S1700000x1.BroadcastsInDim S1700000x33 (![0, 1] : Fin 2 → Fin S1700000x33.rank)
  bcast_S_S100000x33 : S_.BroadcastsInDim S100000x33 (![] : Fin 0 → Fin S100000x33.rank)
  bcast_S33_S1x33_1 : S33.BroadcastsInDim S1x33 (![1] : Fin 1 → Fin S1x33.rank)
  bcast_S1x33_S100000x33_0_1 : S1x33.BroadcastsInDim S100000x33 (![0, 1] : Fin 2 → Fin S100000x33.rank)
  reducesTo_S100000x33_S100000_d1 : S100000x33.ReducesTo [1] S100000
  h_S_ : 0 < S_.numel
  bcast_S100000_S100000x1_0 : S100000.BroadcastsInDim S100000x1 (![0] : Fin 1 → Fin S100000x1.rank)
  bcast_S100000x1_S100000x33_0_1 : S100000x1.BroadcastsInDim S100000x33 (![0, 1] : Fin 2 → Fin S100000x33.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x33_S100000x33_1_0_0_1_n_n_wf : DotDims.WF S100000x128 S128x33 S100000x33 [1] [0] [0] [1] [] []
  gather_S100000x33_S1700000x1_S1700000x33_1_0_n_n_0_1_133_wf : GatherDims.WF S100000x33 S1700000x1 S1700000x33 [1] [0] [] [0] [] 1 ![1, 33]
  scatter_S100000x33_S1700000x1_S1700000x33_1_0_0_1_wf : ScatterDims.WF S100000x33 S1700000x1 S1700000x33 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x33_S100000x33_1_0_0_1_n_n : DotDims S100000x128 S128x33 S100000x33 where
  lhsContracting := [1]
  rhsContracting := [0]
  lhsNonContracting := [0]
  rhsNonContracting := [1]
  lhsBatch := []
  rhsBatch := []
  wf := dot_S100000x128_S128x33_S100000x33_1_0_0_1_n_n_wf
def gather_S100000x33_S1700000x1_S1700000x33_1_0_n_n_0_1_133 : GatherDims S100000x33 S1700000x1 S1700000x33 where
  offsetDims := [1]
  collapsedSliceDims := [0]
  operandBatchingDims := []
  startIndicesBatchingDims := []
  startIndexMap := [0]
  indexVectorDim := 1
  sliceSizes := ![1, 33]
  wf := gather_S100000x33_S1700000x1_S1700000x33_1_0_n_n_0_1_133_wf
def scatter_S100000x33_S1700000x1_S1700000x33_1_0_0_1 : ScatterDims S100000x33 S1700000x1 S1700000x33 where
  updateWindowDims := [1]
  insertedWindowDims := [0]
  scatterDimsToOperandDims := [0]
  indexVectorDim := 1
  wf := scatter_S100000x33_S1700000x1_S1700000x33_1_0_0_1_wf

class Facts : Prop extends Facts₀ where

variable [Facts]
-- ==== Proof.ReferenceRun.lean ====
import proofs.«102166_j78735340470401_1_alg».proof.Proof.GenPRefRun
import proofs.«102166_j78735340470401_1_alg».proof.Proof.GenPRefRead
import Idealize.ShloMosaic.Lib.StableHlo.Run

/-!
# The reference program's run

The reference is one straight line of 138 host operations. Every weakly fair execution of it terminates with each
buffer at the fold of the operations' results over the launch contents; this module reads that fold at the result
buffer. The line is cut into seven stretches (the operations of the inlined functions written as plain operations
at their buffers) — the index vectors, the degree normalisation, the first layer, the
same two preparations again (the second layer recomputes them), the second layer, and the log-softmax. For each
stretch, whatever contents it starts from, the buffer it completes is the matching stage of the reference (a function
of the argument arrays) provided the buffers it reads hold their stages; and a stretch leaves every buffer it does
not write as it was. Chaining the seven facts from the launch contents gives the result buffer as the last stage of
the six argument arrays, and the argument arrays unchanged.
-/

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The seven stretches -/

/-- The edge array's two rows, each with the self-loops appended: source and destination index vectors. -/
abbrev sA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Degrees, their inverse square roots where positive, and the per-edge norm (first computation). -/
abbrev sA2 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- First layer: the product x · W1, one round of message passing, bias and rectifier. -/
abbrev sB : List (HloOp τ sig (Elt F)) :=
  [ binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_call1_cst ((constant S_ .f32 0x00000000#32) : (⟨S_, .f32⟩ : BufTy).Contents (Elt F)),
    unary main_call1_cst main_call1_v0 ((broadcastInDim S100000x128 ![] bcast_S_S100000x128) : (⟨S_, .f32⟩ : BufTy).Contents (Elt F) → (⟨S100000x128, .f32⟩ : BufTy).Contents (Elt F)),
    binary main_v46 main_call1_v0 main_v47 (maximumf : (⟨S100000x128, .f32⟩ : BufTy).Contents (Elt F) → (⟨S100000x128, .f32⟩ : BufTy).Contents (Elt F) → (⟨S100000x128, .f32⟩ : BufTy).Contents (Elt F)) ]

/-- The index vectors again (the second layer recomputes them from the edge array). -/
abbrev sC1 : List (HloOp τ sig (Elt F)) :=
  [ unary main_arg1 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg1 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Degrees, inverse square roots and the per-edge norm again. -/
abbrev sC2 : List (HloOp τ sig (Elt F)) :=
  [ nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 ((broadcastInDim S100000 ![] bcast_S_S100000) : (⟨S_, .f32⟩ : BufTy).Contents (Elt F) → (⟨S100000, .f32⟩ : BufTy).Contents (Elt F)),
    ternary main_v60 main_v61 main_call2_v1 main_v62 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)) ]

/-- Second layer: the product with W2, one round of message passing, and the bias. -/
abbrev sD : List (HloOp τ sig (Elt F)) :=
  [ binary main_v47 main_arg4 main_v78 ((fun l r => Host.dotGeneral dot_S100000x128_S128x33_S100000x33_1_0_0_1_n_n none l r) : (⟨S100000x128, .f32⟩ : BufTy).Contents (Elt F) → (⟨S128x33, .f32⟩ : BufTy).Contents (Elt F) → (⟨S100000x33, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x33_S1700000x1_S1700000x33_1_0_n_n_0_1_133 x i) : (⟨S100000x33, .f32⟩ : BufTy).Contents (Elt F) → (⟨S1700000x1, .i32⟩ : BufTy).Contents (Elt F) → (⟨S1700000x33, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x33 ![0, 1] bcast_S1700000x1_S1700000x33_0_1 : (⟨S1700000x1, .f32⟩ : BufTy).Contents (Elt F) → (⟨S1700000x33, .f32⟩ : BufTy).Contents (Elt F)),
    binary main_v85 main_v87 main_v88 (mulf : (⟨S1700000x33, .f32⟩ : BufTy).Contents (Elt F) → (⟨S1700000x33, .f32⟩ : BufTy).Contents (Elt F) → (⟨S1700000x33, .f32⟩ : BufTy).Contents (Elt F)),
    nullary main_cst_19 (constant S_ .f32 0x00000000#32),
    unary main_cst_19 main_v89 (broadcastInDim S100000x33 ![] bcast_S_S100000x33 : (⟨S_, .f32⟩ : BufTy).Contents (Elt F) → (⟨S100000x33, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x33_S1700000x1_S1700000x33_1_0_0_1 x i u) : (⟨S100000x33, .f32⟩ : BufTy).Contents (Elt F) → (⟨S1700000x1, .i32⟩ : BufTy).Contents (Elt F) → (⟨S1700000x33, .f32⟩ : BufTy).Contents (Elt F) → (⟨S100000x33, .f32⟩ : BufTy).Contents (Elt F)),
    unary main_arg5 main_v92 (broadcastInDim S1x33 ![1] bcast_S33_S1x33_1 : (⟨S33, .f32⟩ : BufTy).Contents (Elt F) → (⟨S1x33, .f32⟩ : BufTy).Contents (Elt F)),
    unary main_v92 main_v93 (broadcastInDim S100000x33 ![0, 1] bcast_S1x33_S100000x33_0_1 : (⟨S1x33, .f32⟩ : BufTy).Contents (Elt F) → (⟨S100000x33, .f32⟩ : BufTy).Contents (Elt F)),
    binary main_v91 main_v93 main_v94 (addf : (⟨S100000x33, .f32⟩ : BufTy).Contents (Elt F) → (⟨S100000x33, .f32⟩ : BufTy).Contents (Elt F) → (⟨S100000x33, .f32⟩ : BufTy).Contents (Elt F)) ]

/-- The row-wise log-softmax. -/
abbrev sE : List (HloOp τ sig (Elt F)) :=
  [ nullary main_call3_cst ((constant S_ .f32 0xFF800000#32) : (⟨S_, .f32⟩ : BufTy).Contents (Elt F)),
    binary main_v94 main_call3_cst main_call3_v0 (fun u v => (TRef.of (T := ⟨S100000, .f32⟩) main_call3_v0).toBuf ((fun x v => Host.reduce FloatOps.maximumf x v reducesTo_S100000x33_S100000_d1 h_S_) ((TRef.of (T := ⟨S100000x33, .f32⟩) main_v94).ofBuf u) ((TRef.of (T := ⟨S_, .f32⟩) main_call3_cst).ofBuf v))),
    nullary main_call3_cst_0 ((constant S_ .f32 0xFF800000#32) : (⟨S_, .f32⟩ : BufTy).Contents (Elt F)),
    unary main_call3_cst_0 main_call3_v1 ((broadcastInDim S100000 ![] bcast_S_S100000) : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 ((broadcastInDim S100000x1 ![0] bcast_S100000_S100000x1_0) : (⟨S100000, .f32⟩ : BufTy).Contents (Elt F) → (⟨S100000x1, .f32⟩ : BufTy).Contents (Elt F)),
    unary main_call3_v3 main_call3_v4 ((broadcastInDim S100000x33 ![0, 1] bcast_S100000x1_S100000x33_0_1) : (⟨S100000x1, .f32⟩ : BufTy).Contents (Elt F) → (⟨S100000x33, .f32⟩ : BufTy).Contents (Elt F)),
    binary main_v94 main_call3_v4 main_call3_v5 (subf : (⟨S100000x33, .f32⟩ : BufTy).Contents (Elt F) → (⟨S100000x33, .f32⟩ : BufTy).Contents (Elt F) → (⟨S100000x33, .f32⟩ : BufTy).Contents (Elt F)),
    unary main_call3_v5 main_call3_v6 (Host.exp : (⟨S100000x33, .f32⟩ : BufTy).Contents (Elt F) → (⟨S100000x33, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S100000x33_S100000_d1 h_S_) : (⟨S100000x33, .f32⟩ : BufTy).Contents (Elt F) → (⟨S_, .f32⟩ : BufTy).Contents (Elt F) → (⟨S100000, .f32⟩ : BufTy).Contents (Elt F)),
    unary main_call3_v7 main_call3_v8 ((broadcastInDim S100000x1 ![0] bcast_S100000_S100000x1_0) : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 ((broadcastInDim S100000x33 ![0, 1] bcast_S100000x1_S100000x33_0_1) : (⟨S100000x1, .f32⟩ : BufTy).Contents (Elt F) → (⟨S100000x33, .f32⟩ : BufTy).Contents (Elt F)),
    binary main_call3_v5 main_call3_v10 main_v95 (subf : (⟨S100000x33, .f32⟩ : BufTy).Contents (Elt F) → (⟨S100000x33, .f32⟩ : BufTy).Contents (Elt F) → (⟨S100000x33, .f32⟩ : BufTy).Contents (Elt F)) ]

/-! ### The same stretches as the line spells them -/

abbrev tA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

abbrev tA2 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev tB : List (HloOp τ sig (Elt F)) :=
  [ binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

abbrev tC1 : List (HloOp τ sig (Elt F)) :=
  [ unary main_arg1 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg1 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

abbrev tC2 : List (HloOp τ sig (Elt F)) :=
  [ nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)) ]

abbrev tD : List (HloOp τ sig (Elt F)) :=
  [ binary main_v47 main_arg4 main_v78 ((fun l r => Host.dotGeneral dot_S100000x128_S128x33_S100000x33_1_0_0_1_n_n none l r) : (⟨S100000x128, .f32⟩ : BufTy).Contents (Elt F) → (⟨S128x33, .f32⟩ : BufTy).Contents (Elt F) → (⟨S100000x33, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x33_S1700000x1_S1700000x33_1_0_n_n_0_1_133 x i) : (⟨S100000x33, .f32⟩ : BufTy).Contents (Elt F) → (⟨S1700000x1, .i32⟩ : BufTy).Contents (Elt F) → (⟨S1700000x33, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x33 ![0, 1] bcast_S1700000x1_S1700000x33_0_1 : (⟨S1700000x1, .f32⟩ : BufTy).Contents (Elt F) → (⟨S1700000x33, .f32⟩ : BufTy).Contents (Elt F)),
    binary main_v85 main_v87 main_v88 (mulf : (⟨S1700000x33, .f32⟩ : BufTy).Contents (Elt F) → (⟨S1700000x33, .f32⟩ : BufTy).Contents (Elt F) → (⟨S1700000x33, .f32⟩ : BufTy).Contents (Elt F)),
    nullary main_cst_19 (constant S_ .f32 0x00000000#32),
    unary main_cst_19 main_v89 (broadcastInDim S100000x33 ![] bcast_S_S100000x33 : (⟨S_, .f32⟩ : BufTy).Contents (Elt F) → (⟨S100000x33, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x33_S1700000x1_S1700000x33_1_0_0_1 x i u) : (⟨S100000x33, .f32⟩ : BufTy).Contents (Elt F) → (⟨S1700000x1, .i32⟩ : BufTy).Contents (Elt F) → (⟨S1700000x33, .f32⟩ : BufTy).Contents (Elt F) → (⟨S100000x33, .f32⟩ : BufTy).Contents (Elt F)),
    unary main_arg5 main_v92 (broadcastInDim S1x33 ![1] bcast_S33_S1x33_1 : (⟨S33, .f32⟩ : BufTy).Contents (Elt F) → (⟨S1x33, .f32⟩ : BufTy).Contents (Elt F)),
    unary main_v92 main_v93 (broadcastInDim S100000x33 ![0, 1] bcast_S1x33_S100000x33_0_1 : (⟨S1x33, .f32⟩ : BufTy).Contents (Elt F) → (⟨S100000x33, .f32⟩ : BufTy).Contents (Elt F)),
    binary main_v91 main_v93 main_v94 (addf : (⟨S100000x33, .f32⟩ : BufTy).Contents (Elt F) → (⟨S100000x33, .f32⟩ : BufTy).Contents (Elt F) → (⟨S100000x33, .f32⟩ : BufTy).Contents (Elt F)) ]

abbrev tE : List (HloOp τ sig (Elt F)) :=
  [ TRef.nullary (TRef.of (T := ⟨S_, .f32⟩) main_call3_cst) (constant S_ .f32 0xFF800000#32),
    TRef.binary (TRef.of (T := ⟨S100000x33, .f32⟩) main_v94) (TRef.of (T := ⟨S_, .f32⟩) main_call3_cst) (TRef.of (T := ⟨S100000, .f32⟩) main_call3_v0) (fun x v => Host.reduce FloatOps.maximumf x v reducesTo_S100000x33_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x33, .f32⟩) main_call3_v4) (broadcastInDim S100000x33 ![0, 1] bcast_S100000x1_S100000x33_0_1),
    TRef.binary (TRef.of (T := ⟨S100000x33, .f32⟩) main_v94) (TRef.of (T := ⟨S100000x33, .f32⟩) main_call3_v4) (TRef.of (T := ⟨S100000x33, .f32⟩) main_call3_v5) subf,
    TRef.unary (TRef.of (T := ⟨S100000x33, .f32⟩) main_call3_v5) (TRef.of (T := ⟨S100000x33, .f32⟩) main_call3_v6) Host.exp,
    TRef.nullary (TRef.of (T := ⟨S_, .f32⟩) main_call3_cst_1) (constant S_ .f32 0x00000000#32),
    TRef.binary (TRef.of (T := ⟨S100000x33, .f32⟩) main_call3_v6) (TRef.of (T := ⟨S_, .f32⟩) main_call3_cst_1) (TRef.of (T := ⟨S100000, .f32⟩) main_call3_v7) (fun x v => Host.reduceAdd x v reducesTo_S100000x33_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x33, .f32⟩) main_call3_v10) (broadcastInDim S100000x33 ![0, 1] bcast_S100000x1_S100000x33_0_1),
    TRef.binary (TRef.of (T := ⟨S100000x33, .f32⟩) main_call3_v5) (TRef.of (T := ⟨S100000x33, .f32⟩) main_call3_v10) (TRef.of (T := ⟨S100000x33, .f32⟩) main_v95) subf ]

/-- The line is the seven stretches one after the other. -/
theorem ops_split_t : (ops (F := F)) = tA1 ++ (tA2 ++ (tB ++ (tC1 ++ (tC2 ++ (tD ++ tE))))) := rfl

set_option maxRecDepth 100000 in
/-- An inlined function's operation at its own buffers is the plain operation. -/
theorem tA1_eq : (tA1 (F := F)) = sA1 := rfl

set_option maxRecDepth 100000 in
/-- An inlined function's operation at its own buffers is the plain operation. -/
theorem tA2_eq : (tA2 (F := F)) = sA2 := rfl

set_option maxRecDepth 100000 in
/-- An inlined function's operation at its own buffers is the plain operation. -/
theorem tB_eq : (tB (F := F)) = sB := rfl

set_option maxRecDepth 100000 in
/-- An inlined function's operation at its own buffers is the plain operation. -/
theorem tC1_eq : (tC1 (F := F)) = sC1 := rfl

set_option maxRecDepth 100000 in
/-- An inlined function's operation at its own buffers is the plain operation. -/
theorem tC2_eq : (tC2 (F := F)) = sC2 := rfl

set_option maxRecDepth 100000 in
/-- An inlined function's operation at its own buffers is the plain operation. -/
theorem tD_eq : (tD (F := F)) = sD := rfl

set_option maxRecDepth 100000 in
/-- An inlined function's operation at its own buffers is the plain operation. -/
theorem tE_eq : (tE (F := F)) = sE := rfl

theorem ops_split : (ops (F := F)) = sA1 ++ (sA2 ++ (sB ++ (sC1 ++ (sC2 ++ (sD ++ sE))))) := by
  rw [ops_split_t, tA1_eq, tA2_eq, tB_eq, tC1_eq, tC2_eq, tD_eq, tE_eq]

/-- A buffer that no operation of a stretch writes holds after the stretch what it held before. -/
macro "ref_keeps" : tactic => `(tactic| (
  refine StableHlo.after_of_forall_not_mem _ _ (List.forall_iff_forall_mem.mp ?_)
  simp only [sA1, sA2, sB, sC1, sC2, sD, sE, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The row maximum is kept in the form the inlined function gives it, its operands and result transported along
    the equation between a buffer's declared type and the type of the value it holds; the equation is true by
    computation, so each transport is the identity. -/
theorem toBuf_rowmax (Z : FVec F S100000 .f32) :
    TRef.toBuf (Val := Elt F) (TRef.of (sig := sig) (T := ⟨S100000, .f32⟩) main_call3_v0) Z = Z := rfl
theorem ofBuf_logits (Y : (⟨S100000x33, .f32⟩ : BufTy).Contents (Elt F)) :
    (TRef.of (sig := sig) (T := ⟨S100000x33, .f32⟩) main_v94).ofBuf Y = Y := rfl
theorem ofBuf_init (y : FVec F S_ .f32) :
    TRef.ofBuf (Val := Elt F) (TRef.of (sig := sig) (T := ⟨S_, .f32⟩) main_call3_cst) y = y := rfl

/-! ## What each stretch completes -/

section Stretches

variable (W : Valuation τ sig (Elt Ideal))

local notation "↑ₜ" b => Proc.devRef Proc.tc b

theorem A1_src : after (sA1 (F := Ideal)) W (↑ₜ main_v5) = val_main_v5 (F := Ideal) (W (↑ₜ main_arg1)) := by
  after_results
  rfl

theorem A1_dst : after (sA1 (F := Ideal)) W (↑ₜ main_v6) = val_main_v6 (F := Ideal) (W (↑ₜ main_arg1)) := by
  after_results
  rfl

theorem A2_norm (x1) (h5 : W (↑ₜ main_v5) = val_main_v5 (F := Ideal) x1) (h6 : W (↑ₜ main_v6) = val_main_v6 (F := Ideal) x1) :
    after (sA2 (F := Ideal)) W (↑ₜ main_v29) = val_main_v29 (F := Ideal) x1 := by
  after_results_simp
  rw [h5, h6]
  simp only [val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]

theorem B_layer1 (x0 x1 x2 x3) (h0 : W (↑ₜ main_arg0) = x0) (h2 : W (↑ₜ main_arg2) = x2) (h3 : W (↑ₜ main_arg3) = x3)
    (h5 : W (↑ₜ main_v5) = val_main_v5 (F := Ideal) x1) (h6 : W (↑ₜ main_v6) = val_main_v6 (F := Ideal) x1)
    (h29 : W (↑ₜ main_v29) = val_main_v29 (F := Ideal) x1) :
    after (sB (F := Ideal)) W (↑ₜ main_v47) = val_main_v47 (F := Ideal) x0 x1 x2 x3 := by
  after_results_simp
  rw [h0, h2, h3, h5, h6, h29]
  simp only [val_main_v30, val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_call1_cst, val_main_call1_v0, val_main_v47]

theorem C1_src : after (sC1 (F := Ideal)) W (↑ₜ main_v53) = val_main_v53 (F := Ideal) (W (↑ₜ main_arg1)) := by
  after_results
  rfl

theorem C1_dst : after (sC1 (F := Ideal)) W (↑ₜ main_v54) = val_main_v54 (F := Ideal) (W (↑ₜ main_arg1)) := by
  after_results
  rfl

theorem C2_norm (x1) (h53 : W (↑ₜ main_v53) = val_main_v53 (F := Ideal) x1) (h54 : W (↑ₜ main_v54) = val_main_v54 (F := Ideal) x1) :
    after (sC2 (F := Ideal)) W (↑ₜ main_v77) = val_main_v77 (F := Ideal) x1 := by
  after_results_simp
  rw [h53, h54]
  simp only [val_main_cst_9, val_main_v55, val_main_cst_10, val_main_v56, val_main_v57, val_main_v58, val_main_cst_11, val_main_v59, val_main_v60, val_main_v61, val_main_cst_12, val_main_call2_v0, val_main_call2_v1, val_main_v62, val_main_c_13, val_main_v63, val_main_v64, val_main_c_14, val_main_v65, val_main_v66, val_main_v67, val_main_v68, val_main_v69, val_main_c_15, val_main_v70, val_main_v71, val_main_c_16, val_main_v72, val_main_v73, val_main_v74, val_main_v75, val_main_v76, val_main_v77]

theorem D_layer2 (x0 x1 x2 x3 x4 x5) (h47 : W (↑ₜ main_v47) = val_main_v47 (F := Ideal) x0 x1 x2 x3)
    (h4 : W (↑ₜ main_arg4) = x4) (h5 : W (↑ₜ main_arg5) = x5)
    (h53 : W (↑ₜ main_v53) = val_main_v53 (F := Ideal) x1) (h54 : W (↑ₜ main_v54) = val_main_v54 (F := Ideal) x1)
    (h77 : W (↑ₜ main_v77) = val_main_v77 (F := Ideal) x1) :
    after (sD (F := Ideal)) W (↑ₜ main_v94) = val_main_v94 (F := Ideal) x0 x1 x2 x3 x4 x5 := by
  after_results_simp
  rw [h47, h4, h5, h53, h54, h77]
  simp only [val_main_v78, val_main_c_17, val_main_v79, val_main_v80, val_main_c_18, val_main_v81, val_main_v82, val_main_v83, val_main_v84, val_main_v85, val_main_v86, val_main_v87, val_main_v88, val_main_cst_19, val_main_v89, val_main_v90, val_main_v91, val_main_v92, val_main_v93, val_main_v94]

theorem E_head (x0 x1 x2 x3 x4 x5) (h94 : W (↑ₜ main_v94) = val_main_v94 (F := Ideal) x0 x1 x2 x3 x4 x5) :
    after (sE (F := Ideal)) W (↑ₜ main_v95) = val_main_v95 (F := Ideal) x0 x1 x2 x3 x4 x5 := by
  after_results_simp
  rw [h94]
  simp only [val_main_call3_cst, val_main_call3_v0, val_main_call3_cst_0, val_main_call3_v1, val_main_call3_v2, val_main_call3_v3, val_main_call3_v4, val_main_call3_v5, val_main_call3_v6, val_main_call3_cst_1, val_main_call3_v7, val_main_call3_v8, val_main_call3_v9, val_main_call3_v10, val_main_v95]
  rw [ofBuf_logits, ofBuf_init, toBuf_rowmax]

end Stretches

/-! ## The seven stretches chained -/

section Chain

variable (W : Valuation τ sig (Elt Ideal))

/-- From any contents, the line leaves the result buffer at the last stage of the six argument arrays found there. -/
theorem result_eq :
    after (ops (F := Ideal)) W (Proc.devRef Proc.tc main_v95)
      = val_main_v95 (F := Ideal) (W (Proc.devRef Proc.tc main_arg0)) (W (Proc.devRef Proc.tc main_arg1)) (W (Proc.devRef Proc.tc main_arg2))
          (W (Proc.devRef Proc.tc main_arg3)) (W (Proc.devRef Proc.tc main_arg4)) (W (Proc.devRef Proc.tc main_arg5)) := by
  rw [ops_split, after_append, after_append, after_append, after_append, after_append, after_append]
  -- the index vectors and the norm, first computation
  have e1_5 := A1_src W
  have e1_6 := A1_dst W
  have e2_29 := A2_norm (after sA1 W) _ e1_5 e1_6
  have e2_5 := (show after sA2 (after sA1 W) (Proc.devRef Proc.tc main_v5) = (after sA1 W) (Proc.devRef Proc.tc main_v5) from by ref_keeps).trans e1_5
  have e2_6 := (show after sA2 (after sA1 W) (Proc.devRef Proc.tc main_v6) = (after sA1 W) (Proc.devRef Proc.tc main_v6) from by ref_keeps).trans e1_6
  -- the first layer
  have e3_47 := B_layer1 (after sA2 (after sA1 W)) _ _ _ _ ((show after sA2 (after sA1 W) (Proc.devRef Proc.tc main_arg0) = (after sA1 W) (Proc.devRef Proc.tc main_arg0) from by ref_keeps).trans (show after sA1 W (Proc.devRef Proc.tc main_arg0) = W (Proc.devRef Proc.tc main_arg0) from by ref_keeps)) ((show after sA2 (after sA1 W) (Proc.devRef Proc.tc main_arg2) = (after sA1 W) (Proc.devRef Proc.tc main_arg2) from by ref_keeps).trans (show after sA1 W (Proc.devRef Proc.tc main_arg2) = W (Proc.devRef Proc.tc main_arg2) from by ref_keeps))
    ((show after sA2 (after sA1 W) (Proc.devRef Proc.tc main_arg3) = (after sA1 W) (Proc.devRef Proc.tc main_arg3) from by ref_keeps).trans (show after sA1 W (Proc.devRef Proc.tc main_arg3) = W (Proc.devRef Proc.tc main_arg3) from by ref_keeps)) e2_5 e2_6 e2_29
  -- the index vectors and the norm, second computation
  have a1 : (after sB (after sA2 (after sA1 W))) (Proc.devRef Proc.tc main_arg1) = W (Proc.devRef Proc.tc main_arg1) := (((show after sB (after sA2 (after sA1 W)) (Proc.devRef Proc.tc main_arg1) = (after sA2 (after sA1 W)) (Proc.devRef Proc.tc main_arg1) from by ref_keeps).trans (show after sA2 (after sA1 W) (Proc.devRef Proc.tc main_arg1) = (after sA1 W) (Proc.devRef Proc.tc main_arg1) from by ref_keeps)).trans (show after sA1 W (Proc.devRef Proc.tc main_arg1) = W (Proc.devRef Proc.tc main_arg1) from by ref_keeps))
  have e4_53 := (C1_src (after sB (after sA2 (after sA1 W)))).trans (congrArg (val_main_v53 (F := Ideal)) a1)
  have e4_54 := (C1_dst (after sB (after sA2 (after sA1 W)))).trans (congrArg (val_main_v54 (F := Ideal)) a1)
  have e5_77 := C2_norm (after sC1 (after sB (after sA2 (after sA1 W)))) _ e4_53 e4_54
  have e5_53 := (show after sC2 (after sC1 (after sB (after sA2 (after sA1 W)))) (Proc.devRef Proc.tc main_v53) = (after sC1 (after sB (after sA2 (after sA1 W)))) (Proc.devRef Proc.tc main_v53) from by ref_keeps).trans e4_53
  have e5_54 := (show after sC2 (after sC1 (after sB (after sA2 (after sA1 W)))) (Proc.devRef Proc.tc main_v54) = (after sC1 (after sB (after sA2 (after sA1 W)))) (Proc.devRef Proc.tc main_v54) from by ref_keeps).trans e4_54
  have e5_47 := ((show after sC2 (after sC1 (after sB (after sA2 (after sA1 W)))) (Proc.devRef Proc.tc main_v47) = (after sC1 (after sB (after sA2 (after sA1 W)))) (Proc.devRef Proc.tc main_v47) from by ref_keeps).trans (show after sC1 (after sB (after sA2 (after sA1 W))) (Proc.devRef Proc.tc main_v47) = (after sB (after sA2 (after sA1 W))) (Proc.devRef Proc.tc main_v47) from by ref_keeps)).trans e3_47
  -- the second layer and the head
  have e6_94 := D_layer2 (after sC2 (after sC1 (after sB (after sA2 (after sA1 W))))) _ _ _ _ _ _ e5_47 (((((show after sC2 (after sC1 (after sB (after sA2 (after sA1 W)))) (Proc.devRef Proc.tc main_arg4) = (after sC1 (after sB (after sA2 (after sA1 W)))) (Proc.devRef Proc.tc main_arg4) from by ref_keeps).trans (show after sC1 (after sB (after sA2 (after sA1 W))) (Proc.devRef Proc.tc main_arg4) = (after sB (after sA2 (after sA1 W))) (Proc.devRef Proc.tc main_arg4) from by ref_keeps)).trans (show after sB (after sA2 (after sA1 W)) (Proc.devRef Proc.tc main_arg4) = (after sA2 (after sA1 W)) (Proc.devRef Proc.tc main_arg4) from by ref_keeps)).trans (show after sA2 (after sA1 W) (Proc.devRef Proc.tc main_arg4) = (after sA1 W) (Proc.devRef Proc.tc main_arg4) from by ref_keeps)).trans (show after sA1 W (Proc.devRef Proc.tc main_arg4) = W (Proc.devRef Proc.tc main_arg4) from by ref_keeps))
    (((((show after sC2 (after sC1 (after sB (after sA2 (after sA1 W)))) (Proc.devRef Proc.tc main_arg5) = (after sC1 (after sB (after sA2 (after sA1 W)))) (Proc.devRef Proc.tc main_arg5) from by ref_keeps).trans (show after sC1 (after sB (after sA2 (after sA1 W))) (Proc.devRef Proc.tc main_arg5) = (after sB (after sA2 (after sA1 W))) (Proc.devRef Proc.tc main_arg5) from by ref_keeps)).trans (show after sB (after sA2 (after sA1 W)) (Proc.devRef Proc.tc main_arg5) = (after sA2 (after sA1 W)) (Proc.devRef Proc.tc main_arg5) from by ref_keeps)).trans (show after sA2 (after sA1 W) (Proc.devRef Proc.tc main_arg5) = (after sA1 W) (Proc.devRef Proc.tc main_arg5) from by ref_keeps)).trans (show after sA1 W (Proc.devRef Proc.tc main_arg5) = W (Proc.devRef Proc.tc main_arg5) from by ref_keeps)) e5_53 e5_54 e5_77
  exact E_head (after sD (after sC2 (after sC1 (after sB (after sA2 (after sA1 W)))))) _ _ _ _ _ _ e6_94

/-- No operation of the line writes an argument array. -/
theorem arg0_kept : after (ops (F := Ideal)) W (Proc.devRef Proc.tc main_arg0) = W (Proc.devRef Proc.tc main_arg0) := by
  rw [ops_split, after_append, after_append, after_append, after_append, after_append, after_append]
  exact (((((((show after sE (after sD (after sC2 (after sC1 (after sB (after sA2 (after sA1 W)))))) (Proc.devRef Proc.tc main_arg0) = (after sD (after sC2 (after sC1 (after sB (after sA2 (after sA1 W)))))) (Proc.devRef Proc.tc main_arg0) from by ref_keeps).trans (show after sD (after sC2 (after sC1 (after sB (after sA2 (after sA1 W))))) (Proc.devRef Proc.tc main_arg0) = (after sC2 (after sC1 (after sB (after sA2 (after sA1 W))))) (Proc.devRef Proc.tc main_arg0) from by ref_keeps)).trans (show after sC2 (after sC1 (after sB (after sA2 (after sA1 W)))) (Proc.devRef Proc.tc main_arg0) = (after sC1 (after sB (after sA2 (after sA1 W)))) (Proc.devRef Proc.tc main_arg0) from by ref_keeps)).trans (show after sC1 (after sB (after sA2 (after sA1 W))) (Proc.devRef Proc.tc main_arg0) = (after sB (after sA2 (after sA1 W))) (Proc.devRef Proc.tc main_arg0) from by ref_keeps)).trans (show after sB (after sA2 (after sA1 W)) (Proc.devRef Proc.tc main_arg0) = (after sA2 (after sA1 W)) (Proc.devRef Proc.tc main_arg0) from by ref_keeps)).trans (show after sA2 (after sA1 W) (Proc.devRef Proc.tc main_arg0) = (after sA1 W) (Proc.devRef Proc.tc main_arg0) from by ref_keeps)).trans (show after sA1 W (Proc.devRef Proc.tc main_arg0) = W (Proc.devRef Proc.tc main_arg0) from by ref_keeps))
theorem arg1_kept : after (ops (F := Ideal)) W (Proc.devRef Proc.tc main_arg1) = W (Proc.devRef Proc.tc main_arg1) := by
  rw [ops_split, after_append, after_append, after_append, after_append, after_append, after_append]
  exact (((((((show after sE (after sD (after sC2 (after sC1 (after sB (after sA2 (after sA1 W)))))) (Proc.devRef Proc.tc main_arg1) = (after sD (after sC2 (after sC1 (after sB (after sA2 (after sA1 W)))))) (Proc.devRef Proc.tc main_arg1) from by ref_keeps).trans (show after sD (after sC2 (after sC1 (after sB (after sA2 (after sA1 W))))) (Proc.devRef Proc.tc main_arg1) = (after sC2 (after sC1 (after sB (after sA2 (after sA1 W))))) (Proc.devRef Proc.tc main_arg1) from by ref_keeps)).trans (show after sC2 (after sC1 (after sB (after sA2 (after sA1 W)))) (Proc.devRef Proc.tc main_arg1) = (after sC1 (after sB (after sA2 (after sA1 W)))) (Proc.devRef Proc.tc main_arg1) from by ref_keeps)).trans (show after sC1 (after sB (after sA2 (after sA1 W))) (Proc.devRef Proc.tc main_arg1) = (after sB (after sA2 (after sA1 W))) (Proc.devRef Proc.tc main_arg1) from by ref_keeps)).trans (show after sB (after sA2 (after sA1 W)) (Proc.devRef Proc.tc main_arg1) = (after sA2 (after sA1 W)) (Proc.devRef Proc.tc main_arg1) from by ref_keeps)).trans (show after sA2 (after sA1 W) (Proc.devRef Proc.tc main_arg1) = (after sA1 W) (Proc.devRef Proc.tc main_arg1) from by ref_keeps)).trans (show after sA1 W (Proc.devRef Proc.tc main_arg1) = W (Proc.devRef Proc.tc main_arg1) from by ref_keeps))
theorem arg2_kept : after (ops (F := Ideal)) W (Proc.devRef Proc.tc main_arg2) = W (Proc.devRef Proc.tc main_arg2) := by
  rw [ops_split, after_append, after_append, after_append, after_append, after_append, after_append]
  exact (((((((show after sE (after sD (after sC2 (after sC1 (after sB (after sA2 (after sA1 W)))))) (Proc.devRef Proc.tc main_arg2) = (after sD (after sC2 (after sC1 (after sB (after sA2 (after sA1 W)))))) (Proc.devRef Proc.tc main_arg2) from by ref_keeps).trans (show after sD (after sC2 (after sC1 (after sB (after sA2 (after sA1 W))))) (Proc.devRef Proc.tc main_arg2) = (after sC2 (after sC1 (after sB (after sA2 (after sA1 W))))) (Proc.devRef Proc.tc main_arg2) from by ref_keeps)).trans (show after sC2 (after sC1 (after sB (after sA2 (after sA1 W)))) (Proc.devRef Proc.tc main_arg2) = (after sC1 (after sB (after sA2 (after sA1 W)))) (Proc.devRef Proc.tc main_arg2) from by ref_keeps)).trans (show after sC1 (after sB (after sA2 (after sA1 W))) (Proc.devRef Proc.tc main_arg2) = (after sB (after sA2 (after sA1 W))) (Proc.devRef Proc.tc main_arg2) from by ref_keeps)).trans (show after sB (after sA2 (after sA1 W)) (Proc.devRef Proc.tc main_arg2) = (after sA2 (after sA1 W)) (Proc.devRef Proc.tc main_arg2) from by ref_keeps)).trans (show after sA2 (after sA1 W) (Proc.devRef Proc.tc main_arg2) = (after sA1 W) (Proc.devRef Proc.tc main_arg2) from by ref_keeps)).trans (show after sA1 W (Proc.devRef Proc.tc main_arg2) = W (Proc.devRef Proc.tc main_arg2) from by ref_keeps))
theorem arg3_kept : after (ops (F := Ideal)) W (Proc.devRef Proc.tc main_arg3) = W (Proc.devRef Proc.tc main_arg3) := by
  rw [ops_split, after_append, after_append, after_append, after_append, after_append, after_append]
  exact (((((((show after sE (after sD (after sC2 (after sC1 (after sB (after sA2 (after sA1 W)))))) (Proc.devRef Proc.tc main_arg3) = (after sD (after sC2 (after sC1 (after sB (after sA2 (after sA1 W)))))) (Proc.devRef Proc.tc main_arg3) from by ref_keeps).trans (show after sD (after sC2 (after sC1 (after sB (after sA2 (after sA1 W))))) (Proc.devRef Proc.tc main_arg3) = (after sC2 (after sC1 (after sB (after sA2 (after sA1 W))))) (Proc.devRef Proc.tc main_arg3) from by ref_keeps)).trans (show after sC2 (after sC1 (after sB (after sA2 (after sA1 W)))) (Proc.devRef Proc.tc main_arg3) = (after sC1 (after sB (after sA2 (after sA1 W)))) (Proc.devRef Proc.tc main_arg3) from by ref_keeps)).trans (show after sC1 (after sB (after sA2 (after sA1 W))) (Proc.devRef Proc.tc main_arg3) = (after sB (after sA2 (after sA1 W))) (Proc.devRef Proc.tc main_arg3) from by ref_keeps)).trans (show after sB (after sA2 (after sA1 W)) (Proc.devRef Proc.tc main_arg3) = (after sA2 (after sA1 W)) (Proc.devRef Proc.tc main_arg3) from by ref_keeps)).trans (show after sA2 (after sA1 W) (Proc.devRef Proc.tc main_arg3) = (after sA1 W) (Proc.devRef Proc.tc main_arg3) from by ref_keeps)).trans (show after sA1 W (Proc.devRef Proc.tc main_arg3) = W (Proc.devRef Proc.tc main_arg3) from by ref_keeps))
theorem arg4_kept : after (ops (F := Ideal)) W (Proc.devRef Proc.tc main_arg4) = W (Proc.devRef Proc.tc main_arg4) := by
  rw [ops_split, after_append, after_append, after_append, after_append, after_append, after_append]
  exact (((((((show after sE (after sD (after sC2 (after sC1 (after sB (after sA2 (after sA1 W)))))) (Proc.devRef Proc.tc main_arg4) = (after sD (after sC2 (after sC1 (after sB (after sA2 (after sA1 W)))))) (Proc.devRef Proc.tc main_arg4) from by ref_keeps).trans (show after sD (after sC2 (after sC1 (after sB (after sA2 (after sA1 W))))) (Proc.devRef Proc.tc main_arg4) = (after sC2 (after sC1 (after sB (after sA2 (after sA1 W))))) (Proc.devRef Proc.tc main_arg4) from by ref_keeps)).trans (show after sC2 (after sC1 (after sB (after sA2 (after sA1 W)))) (Proc.devRef Proc.tc main_arg4) = (after sC1 (after sB (after sA2 (after sA1 W)))) (Proc.devRef Proc.tc main_arg4) from by ref_keeps)).trans (show after sC1 (after sB (after sA2 (after sA1 W))) (Proc.devRef Proc.tc main_arg4) = (after sB (after sA2 (after sA1 W))) (Proc.devRef Proc.tc main_arg4) from by ref_keeps)).trans (show after sB (after sA2 (after sA1 W)) (Proc.devRef Proc.tc main_arg4) = (after sA2 (after sA1 W)) (Proc.devRef Proc.tc main_arg4) from by ref_keeps)).trans (show after sA2 (after sA1 W) (Proc.devRef Proc.tc main_arg4) = (after sA1 W) (Proc.devRef Proc.tc main_arg4) from by ref_keeps)).trans (show after sA1 W (Proc.devRef Proc.tc main_arg4) = W (Proc.devRef Proc.tc main_arg4) from by ref_keeps))
theorem arg5_kept : after (ops (F := Ideal)) W (Proc.devRef Proc.tc main_arg5) = W (Proc.devRef Proc.tc main_arg5) := by
  rw [ops_split, after_append, after_append, after_append, after_append, after_append, after_append]
  exact (((((((show after sE (after sD (after sC2 (after sC1 (after sB (after sA2 (after sA1 W)))))) (Proc.devRef Proc.tc main_arg5) = (after sD (after sC2 (after sC1 (after sB (after sA2 (after sA1 W)))))) (Proc.devRef Proc.tc main_arg5) from by ref_keeps).trans (show after sD (after sC2 (after sC1 (after sB (after sA2 (after sA1 W))))) (Proc.devRef Proc.tc main_arg5) = (after sC2 (after sC1 (after sB (after sA2 (after sA1 W))))) (Proc.devRef Proc.tc main_arg5) from by ref_keeps)).trans (show after sC2 (after sC1 (after sB (after sA2 (after sA1 W)))) (Proc.devRef Proc.tc main_arg5) = (after sC1 (after sB (after sA2 (after sA1 W)))) (Proc.devRef Proc.tc main_arg5) from by ref_keeps)).trans (show after sC1 (after sB (after sA2 (after sA1 W))) (Proc.devRef Proc.tc main_arg5) = (after sB (after sA2 (after sA1 W))) (Proc.devRef Proc.tc main_arg5) from by ref_keeps)).trans (show after sB (after sA2 (after sA1 W)) (Proc.devRef Proc.tc main_arg5) = (after sA2 (after sA1 W)) (Proc.devRef Proc.tc main_arg5) from by ref_keeps)).trans (show after sA2 (after sA1 W) (Proc.devRef Proc.tc main_arg5) = (after sA1 W) (Proc.devRef Proc.tc main_arg5) from by ref_keeps)).trans (show after sA1 W (Proc.devRef Proc.tc main_arg5) = W (Proc.devRef Proc.tc main_arg5) from by ref_keeps))

end Chain

/-! ## The run -/

/-- Every weakly fair execution of the reference terminates without a fault, with the result buffer at the last
    stage of the argument arrays as launched, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95)
        = val_main_v95 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v95).trans (result_eq (launchContents m c)),
       (h c main_arg0).trans (arg0_kept (launchContents m c)),
       (h c main_arg1).trans (arg1_kept (launchContents m c)),
       (h c main_arg2).trans (arg2_kept (launchContents m c)),
       (h c main_arg3).trans (arg3_kept (launchContents m c)),
       (h c main_arg4).trans (arg4_kept (launchContents m c)),
       (h c main_arg5).trans (arg5_kept (launchContents m c))⟩)
    (run_seq scopedRefs_eq scopedSems_eq defs main (fun _ => ops) main_eq (fun _ => ops_sub) m ρ)

end Cert.ReferenceIdeal.RefRun

end
-- ==== Proof.HostEdges.lean ====
import proofs.«102166_j78735340470401_1_alg».proof.Proof.Gen.KernelIdeal.Frame
import proofs.«102166_j78735340470401_1_alg».proof.Proof.GenPRefRead
import Idealize.ShloMosaic.Lib.StableHlo.Run

/-!
# The host side of the kernel program: edge lists, the edge norm, and what later stretches still find

Before its first kernel the program builds, from the 2×1600000 edge array, the source and destination index vectors
(each with the 100000 self-loops appended) and the normalisation column: the product, per edge, of the inverse
square roots of the degrees of its two end points, where the degree is the number of edges arriving at a node. The
reference builds the same three values by the same operations, so each is stated here as the reference's own stage.
No kernel and no later host operation writes these buffers or the argument arrays, so every later stretch finds them
as they were left.
-/

set_option maxRecDepth 16384

noncomputable section

namespace Cert.KernelIdeal.GcnEdges

open Cert.KernelIdeal Cert.KernelIdeal.Gen
open Idealize.ShloMosaic Idealize.ShloMosaic.TcCoe Idealize.SL.Sem Idealize.ShloMosaic.StableHlo
open Cert.ReferenceIdeal.ReadP

section Lists

variable {F : FTy → Type} [FloatOps F]

/-- The first seven host operations: the two index vectors. -/
abbrev opsIndex : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The next eleven: the degree of every node, the comparison with zero and the inverse square root. -/
abbrev opsDegree : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem hostOps0_split : (hostOps0 (F := F)) = opsIndex ++ opsDegree := rfl

/-- The selection "inverse square root where the degree is positive, else zero", with plain operations at its buffers. -/
abbrev opsWhere : List (HloOp τ sig (Elt F)) :=
  [ StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

set_option maxRecDepth 100000 in
theorem hostOps0_1_plain : (hostOps0_1 (F := F)) = opsWhere := rfl

end Lists

variable (m : (ℓ : Loc nD τ sig) → Buf (Elt Ideal) ℓ) (ρ : Dev nD → PrngReg) (c : Dev nD)

/-- A buffer that no operation of a host stretch writes holds after the stretch what it held before. -/
macro "stretch_keeps" : tactic => `(tactic| (
  refine StableHlo.after_of_forall_not_mem _ _ (List.forall_iff_forall_mem.mp ?_)
  simp only [hostOps0, hostOps0_1, hostOps0_2, hostOps1, hostOps2, hostOps3, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- The six argument arrays as launched. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)

/-! ## What the first three stretches leave -/

/-- The source index vector: the edge array's first row, then the self-loops. -/
theorem W3_src : W3 m ρ c (Proc.devRef .tc main_v5) = val_main_v5 (F := Ideal) (x1 m c) := by
  show StableHlo.after hostOps0_2 (StableHlo.after hostOps0_1 (StableHlo.after hostOps0 (W0 m ρ c))) (Proc.devRef .tc main_v5) = _
  after_results
  rfl

/-- The destination index vector: the edge array's second row, then the self-loops. -/
theorem W3_dst : W3 m ρ c (Proc.devRef .tc main_v6) = val_main_v6 (F := Ideal) (x1 m c) := by
  show StableHlo.after hostOps0_2 (StableHlo.after hostOps0_1 (StableHlo.after hostOps0 (W0 m ρ c))) (Proc.devRef .tc main_v6) = _
  after_results
  rfl

/-- The normalisation column: per edge, the inverse square roots of its end points' degrees multiplied. -/
theorem W3_norm : W3 m ρ c (Proc.devRef .tc main_v30) = val_main_v38 (F := Ideal) (x1 m c) := by
  show StableHlo.after hostOps0_2 (StableHlo.after hostOps0_1 (StableHlo.after hostOps0 (W0 m ρ c))) (Proc.devRef .tc main_v30) = _
  rw [hostOps0_1_plain, hostOps0_split, after_append]
  have h5 : StableHlo.after opsIndex (W0 m ρ c) (Proc.devRef .tc main_v5) = val_main_v5 (F := Ideal) (x1 m c) := by
    after_results
    rfl
  have h6 : StableHlo.after opsIndex (W0 m ρ c) (Proc.devRef .tc main_v6) = val_main_v6 (F := Ideal) (x1 m c) := by
    after_results
    rfl
  generalize StableHlo.after opsIndex (W0 m ρ c) = U at h5 h6 ⊢
  after_results_simp
  rw [h5, h6]
  simp only [val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, val_main_v38]
  try rfl

/-- The first product's left operand is the feature array: the change of float format is the identity. -/
theorem W3_feat : (W3 m ρ c (Proc.devRef .tc main_v31) : S100000x256.Idx → EReal) = x0 m c := by
  show StableHlo.after hostOps0_2 (StableHlo.after hostOps0_1 (StableHlo.after hostOps0 (W0 m ρ c))) (Proc.devRef .tc main_v31) = _
  after_results_simp
  rfl

/-- The first product's right operand is the first weight array. -/
theorem W3_w1 : (W3 m ρ c (Proc.devRef .tc main_v32) : S256x128.Idx → EReal) = x2 m c := by
  show StableHlo.after hostOps0_2 (StableHlo.after hostOps0_1 (StableHlo.after hostOps0 (W0 m ρ c))) (Proc.devRef .tc main_v32) = _
  after_results_simp
  rfl

/-! ## The same buffers at the later boundaries -/

theorem W4_src : W4 m ρ c (Proc.devRef .tc main_v5) = val_main_v5 (F := Ideal) (x1 m c) :=
  (show W4 m ρ c (Proc.devRef .tc main_v5) = W3 m ρ c (Proc.devRef .tc main_v5) from
    calc W4 m ρ c (Proc.devRef .tc main_v5)
      _ = W3 m ρ c (Proc.devRef .tc main_v5) := W4_of_ne m ρ c main_v5 (by decide)
  ).trans (W3_src m ρ c)

theorem W8_src : W8 m ρ c (Proc.devRef .tc main_v5) = val_main_v5 (F := Ideal) (x1 m c) :=
  (show W8 m ρ c (Proc.devRef .tc main_v5) = W3 m ρ c (Proc.devRef .tc main_v5) from
    calc W8 m ρ c (Proc.devRef .tc main_v5)
      _ = W7 m ρ c (Proc.devRef .tc main_v5) := W8_of_ne m ρ c main_v5 (by decide)
      _ = W6 m ρ c (Proc.devRef .tc main_v5) := by stretch_keeps
      _ = W5 m ρ c (Proc.devRef .tc main_v5) := W6_of_ne m ρ c main_v5 (by decide)
      _ = W4 m ρ c (Proc.devRef .tc main_v5) := by stretch_keeps
      _ = W3 m ρ c (Proc.devRef .tc main_v5) := W4_of_ne m ρ c main_v5 (by decide)
  ).trans (W3_src m ρ c)

theorem W4_dst : W4 m ρ c (Proc.devRef .tc main_v6) = val_main_v6 (F := Ideal) (x1 m c) :=
  (show W4 m ρ c (Proc.devRef .tc main_v6) = W3 m ρ c (Proc.devRef .tc main_v6) from
    calc W4 m ρ c (Proc.devRef .tc main_v6)
      _ = W3 m ρ c (Proc.devRef .tc main_v6) := W4_of_ne m ρ c main_v6 (by decide)
  ).trans (W3_dst m ρ c)

theorem W8_dst : W8 m ρ c (Proc.devRef .tc main_v6) = val_main_v6 (F := Ideal) (x1 m c) :=
  (show W8 m ρ c (Proc.devRef .tc main_v6) = W3 m ρ c (Proc.devRef .tc main_v6) from
    calc W8 m ρ c (Proc.devRef .tc main_v6)
      _ = W7 m ρ c (Proc.devRef .tc main_v6) := W8_of_ne m ρ c main_v6 (by decide)
      _ = W6 m ρ c (Proc.devRef .tc main_v6) := by stretch_keeps
      _ = W5 m ρ c (Proc.devRef .tc main_v6) := W6_of_ne m ρ c main_v6 (by decide)
      _ = W4 m ρ c (Proc.devRef .tc main_v6) := by stretch_keeps
      _ = W3 m ρ c (Proc.devRef .tc main_v6) := W4_of_ne m ρ c main_v6 (by decide)
  ).trans (W3_dst m ρ c)

theorem W4_norm : W4 m ρ c (Proc.devRef .tc main_v30) = val_main_v38 (F := Ideal) (x1 m c) :=
  (show W4 m ρ c (Proc.devRef .tc main_v30) = W3 m ρ c (Proc.devRef .tc main_v30) from
    calc W4 m ρ c (Proc.devRef .tc main_v30)
      _ = W3 m ρ c (Proc.devRef .tc main_v30) := W4_of_ne m ρ c main_v30 (by decide)
  ).trans (W3_norm m ρ c)

theorem W8_norm : W8 m ρ c (Proc.devRef .tc main_v30) = val_main_v38 (F := Ideal) (x1 m c) :=
  (show W8 m ρ c (Proc.devRef .tc main_v30) = W3 m ρ c (Proc.devRef .tc main_v30) from
    calc W8 m ρ c (Proc.devRef .tc main_v30)
      _ = W7 m ρ c (Proc.devRef .tc main_v30) := W8_of_ne m ρ c main_v30 (by decide)
      _ = W6 m ρ c (Proc.devRef .tc main_v30) := by stretch_keeps
      _ = W5 m ρ c (Proc.devRef .tc main_v30) := W6_of_ne m ρ c main_v30 (by decide)
      _ = W4 m ρ c (Proc.devRef .tc main_v30) := by stretch_keeps
      _ = W3 m ρ c (Proc.devRef .tc main_v30) := W4_of_ne m ρ c main_v30 (by decide)
  ).trans (W3_norm m ρ c)

theorem W4_x3 : W4 m ρ c (Proc.devRef .tc main_arg3) = x3 m c :=
  calc W4 m ρ c (Proc.devRef .tc main_arg3)
    _ = W3 m ρ c (Proc.devRef .tc main_arg3) := W4_of_ne m ρ c main_arg3 (by decide)
    _ = W2 m ρ c (Proc.devRef .tc main_arg3) := by stretch_keeps
    _ = W1 m ρ c (Proc.devRef .tc main_arg3) := by stretch_keeps
    _ = W0 m ρ c (Proc.devRef .tc main_arg3) := by stretch_keeps
    _ = x3 m c := rfl

theorem W6_x4 : W6 m ρ c (Proc.devRef .tc main_arg4) = x4 m c :=
  calc W6 m ρ c (Proc.devRef .tc main_arg4)
    _ = W5 m ρ c (Proc.devRef .tc main_arg4) := W6_of_ne m ρ c main_arg4 (by decide)
    _ = W4 m ρ c (Proc.devRef .tc main_arg4) := by stretch_keeps
    _ = W3 m ρ c (Proc.devRef .tc main_arg4) := W4_of_ne m ρ c main_arg4 (by decide)
    _ = W2 m ρ c (Proc.devRef .tc main_arg4) := by stretch_keeps
    _ = W1 m ρ c (Proc.devRef .tc main_arg4) := by stretch_keeps
    _ = W0 m ρ c (Proc.devRef .tc main_arg4) := by stretch_keeps
    _ = x4 m c := rfl

theorem W8_x5 : W8 m ρ c (Proc.devRef .tc main_arg5) = x5 m c :=
  calc W8 m ρ c (Proc.devRef .tc main_arg5)
    _ = W7 m ρ c (Proc.devRef .tc main_arg5) := W8_of_ne m ρ c main_arg5 (by decide)
    _ = W6 m ρ c (Proc.devRef .tc main_arg5) := by stretch_keeps
    _ = W5 m ρ c (Proc.devRef .tc main_arg5) := W6_of_ne m ρ c main_arg5 (by decide)
    _ = W4 m ρ c (Proc.devRef .tc main_arg5) := by stretch_keeps
    _ = W3 m ρ c (Proc.devRef .tc main_arg5) := W4_of_ne m ρ c main_arg5 (by decide)
    _ = W2 m ρ c (Proc.devRef .tc main_arg5) := by stretch_keeps
    _ = W1 m ρ c (Proc.devRef .tc main_arg5) := by stretch_keeps
    _ = W0 m ρ c (Proc.devRef .tc main_arg5) := by stretch_keeps
    _ = x5 m c := rfl

end Cert.KernelIdeal.GcnEdges

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.FirstProduct.lean ====
import proofs.«102166_j78735340470401_1_alg».proof.Proof.Gen.KernelIdeal.Frame
import proofs.«102166_j78735340470401_1_alg».proof.Proof.LibPlainDot
import Idealize.ShloMosaic.Lib.Pipeline.Value
import Idealize.ShloMosaic.Lib.ValueIdx
import Idealize.ShloMosaic.PureOps.Ideal.Laws

/-!
# The first dense product, x · W1, as one whole-array function

The kernel multiplies a 100000×256 array by a 256×128 array ten thousand rows at a time: grid point `t` reads rows
`10000 t … 10000 t + 9999` of the left operand and the whole right operand, and writes the same rows of the result.
At the exact values each written entry is `∑ k, left (r, k) * right (k, q)`; the ten row blocks tile the result, so
after the region the whole result array is that product of the two arrays the region found on entry.
-/

set_option maxRecDepth 16384

noncomputable section

namespace Cert.KernelIdeal.FirstProduct

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product of a 100000×256 array and a 256×128 array, entry by entry. -/
def prod (a : S100000x256.Idx → EReal) (b : S256x128.Idx → EReal) : S100000x128.Idx → EReal :=
  fun i => ∑ k : Fin 256, a (ix2 (⟨(i 0).val, (i 0).isLt⟩ : Fin 100000) k) * b (ix2 k (⟨(i 1).val, (i 1).isLt⟩ : Fin 128))

/-- One block's product read at row `p`, column `q` of the block. -/
theorem pay_apply (x0 : FVec Ideal S10000x256 .bf16) (x1 : FVec Ideal S256x128 .bf16) (p : Fin 10000) (q : Fin 128) :
    k0_pay1 (F := Ideal) x0 x1 (ix2 p q) = ∑ k : Fin 256, x0 (ix2 p k) * x1 (ix2 k q) := by
  unfold k0_pay1
  rw [shapeCast_self, shapeCast_self]
  exact Cert.Lib.PlainDot.matmul_zero_apply (a := 10000) (c := 256) (b := 128) dot_S10000x256_S256x128_S10000x128_1_0_0_1_n_n_wf none x0 x1 p q

/-- The printed index maps over the grid: the left operand's and the result's row blocks move together, every other
    block index is zero, and the result's row block index is below ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the product of the arrays the region found. -/
theorem flushed_eq (c : Dev nD) (t : Fin cfg0.N) :
    (dat0 V c).flushed 2 t = ((cfg0.win 2).blk t).view.read (Elt Ideal) (prod (V c main_v31) (V c main_v32)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q) = prod (V c main_v31) (V c main_v32) (((cfg0.win 2).blk t).view.emb (ix2 p q))
  refine (pay_apply (iblk0 V c 0 t) (iblk0 V c 1 t) p q).trans ?_
  unfold prod
  refine Finset.sum_congr rfl fun k _ => ?_
  have h0 : iblk0 V c 0 t (ix2 p k) = V c main_v31 (ix2 (⟨((((cfg0.win 2).blk t).view.emb (ix2 p q)) 0).val, ((((cfg0.win 2).blk t).view.emb (ix2 p q)) 0).isLt⟩ : Fin 100000) k) := by
    show V c main_v31 (((cfg0.win 0).blk t).view.emb (ix2 p k)) = _
    refine congrArg (V c main_v31) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * k.val = k.val; omega
  have h1 : iblk0 V c 1 t (ix2 k q) = V c main_v32 (ix2 k (⟨((((cfg0.win 2).blk t).view.emb (ix2 p q)) 1).val, ((((cfg0.win 2).blk t).view.emb (ix2 p q)) 1).isLt⟩ : Fin 128)) := by
    show V c main_v32 (((cfg0.win 1).blk t).view.emb (ix2 k q)) = _
    refine congrArg (V c main_v32) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- The ten row blocks cover the result: row `r` lies in block `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the result array is the product of the two arrays the region found on entry. -/
theorem final (c : Dev nD) : (dat0 V c).arrAt 2 cfg0.N = prod (V c main_v31) (V c main_v32) :=
  (dat0 V c).arrAt_eq_of_cover 2 (prod (V c main_v31) (V c main_v32)) (fun t _ => flushed_eq V c t) cover

end Cert.KernelIdeal.FirstProduct

end
-- ==== Proof.SecondProduct.lean ====
import proofs.«102166_j78735340470401_1_alg».proof.Proof.Gen.KernelIdeal.Frame
import proofs.«102166_j78735340470401_1_alg».proof.Proof.LibPlainDot
import Idealize.ShloMosaic.Lib.Pipeline.Value
import Idealize.ShloMosaic.Lib.ValueIdx
import Idealize.ShloMosaic.PureOps.Ideal.Laws

/-!
# The second dense product, h · W2, as one whole-array function

The kernel multiplies a 100000×128 array by a 128×33 array ten thousand rows at a time: grid point `t` reads rows
`10000 t … 10000 t + 9999` of the left operand and the whole right operand, and writes the same rows of the result.
At the exact values each written entry is `∑ k, left (r, k) * right (k, q)`; the ten row blocks tile the result, so
after the region the whole result array is that product of the two arrays the region found on entry.
-/

set_option maxRecDepth 16384

noncomputable section

namespace Cert.KernelIdeal.SecondProduct

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product of a 100000×128 array and a 128×33 array, entry by entry. -/
def prod (a : S100000x128.Idx → EReal) (b : S128x33.Idx → EReal) : S100000x33.Idx → EReal :=
  fun i => ∑ k : Fin 128, a (ix2 (⟨(i 0).val, (i 0).isLt⟩ : Fin 100000) k) * b (ix2 k (⟨(i 1).val, (i 1).isLt⟩ : Fin 33))

/-- One block's product read at row `p`, column `q` of the block. -/
theorem pay_apply (x0 : FVec Ideal S10000x128 .bf16) (x1 : FVec Ideal S128x33 .bf16) (p : Fin 10000) (q : Fin 33) :
    k2_pay1 (F := Ideal) x0 x1 (ix2 p q) = ∑ k : Fin 128, x0 (ix2 p k) * x1 (ix2 k q) := by
  unfold k2_pay1
  rw [shapeCast_self, shapeCast_self]
  exact Cert.Lib.PlainDot.matmul_zero_apply (a := 10000) (c := 128) (b := 33) dot_S10000x128_S128x33_S10000x33_1_0_0_1_n_n_wf none x0 x1 p q

/-- The printed index maps over the grid: the left operand's and the result's row blocks move together, every other
    block index is zero, and the result's row block index is below ten. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the result is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of the product of the arrays the region found. -/
theorem flushed_eq (c : Dev nD) (t : Fin cfg2.N) :
    (dat2 V c).flushed 2 t = ((cfg2.win 2).blk t).view.read (Elt Ideal) (prod (V c main_v47) (V c main_v48)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x33) hz]
  obtain ⟨e0, e1, e2, e3, e4, e5⟩ := idx_facts t
  funext j
  obtain ⟨p, q, rfl⟩ : ∃ (p : Fin 10000) (q : Fin 33), j = ix2 p q := ⟨j 0, j 1, eq_ix2 j⟩
  show k2_pay1 (F := Ideal) (iblk2 V c 0 t) (iblk2 V c 1 t) (ix2 p q) = prod (V c main_v47) (V c main_v48) (((cfg2.win 2).blk t).view.emb (ix2 p q))
  refine (pay_apply (iblk2 V c 0 t) (iblk2 V c 1 t) p q).trans ?_
  unfold prod
  refine Finset.sum_congr rfl fun k _ => ?_
  have h0 : iblk2 V c 0 t (ix2 p k) = V c main_v47 (ix2 (⟨((((cfg2.win 2).blk t).view.emb (ix2 p q)) 0).val, ((((cfg2.win 2).blk t).view.emb (ix2 p q)) 0).isLt⟩ : Fin 100000) k) := by
    show V c main_v47 (((cfg2.win 0).blk t).view.emb (ix2 p k)) = _
    refine congrArg (V c main_v47) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have h1 : iblk2 V c 1 t (ix2 k q) = V c main_v48 (ix2 k (⟨((((cfg2.win 2).blk t).view.emb (ix2 p q)) 1).val, ((((cfg2.win 2).blk t).view.emb (ix2 p q)) 1).isLt⟩ : Fin 33)) := by
    show V c main_v48 (((cfg2.win 1).blk t).view.emb (ix2 k q)) = _
    refine congrArg (V c main_v48) (funext fun a => Fin.ext ?_)
    match a with
    | ⟨0, _⟩ => show win2_1.index t (0 : Fin 2) * 128 + 1 * k.val = k.val; omega
    | ⟨1, _⟩ => show win2_1.index t (1 : Fin 2) * 33 + 1 * q.val = win2_2.index t (1 : Fin 2) * 33 + 1 * q.val; omega
  rw [h0, h1]

/-- An index of the result is in point `t`'s block iff each coordinate is in the block's range on its axis. -/
theorem mem_blk (t : Fin cfg2.N) (i : S100000x33.Idx) :
    i ∈ ((cfg2.win 2).blk t).view.set ↔ ∀ a : Fin 2, win2_2.index t a * S10000x33.size a ≤ (i a).val ∧ (i a).val < win2_2.index t a * S10000x33.size a + S10000x33.size a := by
  show i ∈ ((View.whole main_v49).slice (win2_2.rect t)).set ↔ _
  rw [View.set_slice_whole, Rect.mem_set_unit]
  exact Iff.rfl

/-- The ten row blocks cover the result: row `r` lies in block `r / 10000`. -/
theorem cover (i : S100000x33.Idx) :
    ∃ t : Fin cfg2.N, (cfg2.win 2).flush t = true ∧ i ∈ ((cfg2.win 2).blk t).view.set := by
  have hi0 : (i 0).val < 100000 := (i 0).isLt
  have hi1 : (i 1).val < 33 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 33 ≤ (i 1).val ∧ (i 1).val < win2_2.index t (1 : Fin 2) * 33 + 33; omega

/-- After the region the result array is the product of the two arrays the region found on entry. -/
theorem final (c : Dev nD) : (dat2 V c).arrAt 2 cfg2.N = prod (V c main_v47) (V c main_v48) :=
  (dat2 V c).arrAt_eq_of_cover 2 (prod (V c main_v47) (V c main_v48)) (fun t _ => flushed_eq V c t) cover

end Cert.KernelIdeal.SecondProduct

end
-- ==== Proof.RowLaws.lean ====
/-
  Index-level laws of the two row-wise stages: bias then rectifier, and bias then log-softmax over a row of 33.
  Each side's stage, read at one index (row, column), is the same expression of the row: for the rectifier
  `max (x + b) 0`; for the log-softmax the row function `logSoftmaxRow` below. Everything is at the ideal values
  (extended reals): no rounding, a format change is the identity, `max ⊥ x = x` and `0 + s = s` hold everywhere,
  so no finiteness is assumed anywhere in this file.
-/
import proofs.«102166_j78735340470401_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.GcnRows

open Idealize.ShloMosaic Idealize.ShloMosaic.ValueIdx
open scoped BigOperators

/-! ## Words -/

/-- The f32 word of minus infinity denotes the bottom of the extended reals. -/
theorem ofBits_neg_inf_f32 : Ideal.ofBits .f32 0xFF800000#32 = ⊥ := by simp [Ideal.ofBits, Ideal.ieee]

/-! ## The row function both programs compute -/

/-- Log-softmax of one row of 33 extended reals: subtract the row's maximum, then subtract the logarithm of the sum
    of the exponentials of the shifted row. -/
def logSoftmaxRow (row : Fin 33 → EReal) (q : Fin 33) : EReal :=
  (row q - (Finset.univ : Finset (Fin 33)).fold max ⊥ row)
    - Ideal.log (∑ j : Fin 33, Ideal.exp (row j - (Finset.univ : Finset (Fin 33)).fold max ⊥ row))

/-! ## Column forms of the layout operations -/

/-- A length-`a` vector cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows of a matrix -/

/-- The source index over row `p` with column `k` inserted is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A maximum along the rows from minus infinity, at row `p`, is the fold of `max` from `⊥` over the row. -/
theorem rowMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ v 0xFF800000#32 h hφ hacc (ix1 p)
      = (Finset.univ : Finset (Fin b)).fold max ⊥ (fun k => v (ix2 p k)) := by
  refine (Ideal.multiReduction_maximumf_single v _ h hφ hacc (ix1 p)).trans ?_
  show (Finset.univ : Finset (Fin b)).fold max (Ideal.ofBits .f32 0xFF800000#32) (v ∘ h.lift (ix1 p)) = _
  rw [ofBits_neg_inf_f32]
  exact congrArg (fun f => Finset.fold max ⊥ f (Finset.univ : Finset (Fin b))) (funext fun k => congrArg v (lift_row h p k))

/-- A sum along the rows from zero, at row `p`, is the sum over the row. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  exact Finset.sum_congr rfl fun k _ => congrArg v (lift_row h p k)

/-! ## The kernel's two row-wise payloads at an index -/

/-- Bias then rectifier: at `(p, q)` the block's element plus the bias at column `q`, cut below at zero. -/
theorem pay_relu_apply (x0 : Vec Ideal Cert.KernelIdeal.S10000x128 .f32) (x1 : Vec Ideal Cert.KernelIdeal.S1x128 .f32)
    (p : Fin 10000) (q : Fin 128) :
    Cert.KernelIdeal.Gen.k1_pay1 (F := Ideal) x0 x1 (ix2 p q) = max (x0 (ix2 p q) + x1 (ix2 0 q)) 0 := by
  unfold Cert.KernelIdeal.Gen.k1_pay1
  rw [shapeCast_self, shapeCast_self]
  show max (x0 (ix2 p q) + broadcastTo Cert.KernelIdeal.S10000x128 x1 _ (ix2 p q)) (Ideal.ofBits .f32 0x00000000#32) = _
  rw [broadcastTo_1b_ab_apply, Ideal.ofBits_zero_f32]

/-- The log-softmax pipeline over a block `y`, read at `(p, q)`, is the row function of row `p` of `y`. -/
theorem lsm_core (y : FVec Ideal Cert.KernelIdeal.S10000x33 .f32)
    (hr : Cert.KernelIdeal.S10000x33.Reduces [1] Cert.KernelIdeal.S10000) (hφ : FKind.Formats .f32)
    (hm : (0xFF800000#32 : BitVec 32) = FKind.maximumf.neutral .f32 hφ)
    (hs : (0x00000000#32 : BitVec 32) = FKind.add.neutral .f32 hφ)
    (hc : Cert.KernelIdeal.S10000.ShapeCasts Cert.KernelIdeal.S10000x1)
    (hb : Cert.KernelIdeal.S10000x1.Broadcasts Cert.KernelIdeal.S10000x33) (p : Fin 10000) (q : Fin 33) :
    subf (subf y (broadcastTo Cert.KernelIdeal.S10000x33 (shapeCast Cert.KernelIdeal.S10000x1
            (multiReduction (F := Ideal) .maximumf [1] Cert.KernelIdeal.S10000 y 0xFF800000#32 hr hφ hm) hc) hb))
        (broadcastTo Cert.KernelIdeal.S10000x33 (log (shapeCast Cert.KernelIdeal.S10000x1
            (multiReduction (F := Ideal) .add [1] Cert.KernelIdeal.S10000
              (exp (subf y (broadcastTo Cert.KernelIdeal.S10000x33 (shapeCast Cert.KernelIdeal.S10000x1
                (multiReduction (F := Ideal) .maximumf [1] Cert.KernelIdeal.S10000 y 0xFF800000#32 hr hφ hm) hc) hb)))
              0x00000000#32 hr hφ hs) hc)) hb) (ix2 p q)
      = logSoftmaxRow (fun j => y (ix2 p j)) q := by
  have hM : ∀ c : Fin 33, broadcastTo Cert.KernelIdeal.S10000x33 (shapeCast Cert.KernelIdeal.S10000x1
        (multiReduction (F := Ideal) .maximumf [1] Cert.KernelIdeal.S10000 y 0xFF800000#32 hr hφ hm) hc) hb (ix2 p c)
      = (Finset.univ : Finset (Fin 33)).fold max ⊥ (fun k => y (ix2 p k)) := fun c =>
    ((broadcastTo_a1_ab_apply _ hb p c).trans (shapeCast_a_a1_apply _ hc p 0)).trans (rowMax_apply y hr hφ hm p)
  unfold logSoftmaxRow
  refine congrArg₂ (· - ·) (congrArg (y (ix2 p q) - ·) (hM q)) ?_
  refine (broadcastTo_a1_ab_apply _ hb p q).trans ?_
  refine congrArg Ideal.log ((shapeCast_a_a1_apply _ hc p 0).trans ?_)
  refine (rowSum_apply _ hr hφ hs p).trans (Finset.sum_congr rfl fun k _ => ?_)
  exact congrArg (fun m => Ideal.exp (y (ix2 p k) - m)) (hM k)

/-- Bias then log-softmax: at `(p, q)` the row function of row `p` of the block plus the bias. -/
theorem pay_lsm_apply (x0 : Vec Ideal Cert.KernelIdeal.S10000x33 .f32) (x1 : Vec Ideal Cert.KernelIdeal.S1x33 .f32)
    (p : Fin 10000) (q : Fin 33) :
    Cert.KernelIdeal.Gen.k3_pay1 (F := Ideal) x0 x1 (ix2 p q) = logSoftmaxRow (fun j => x0 (ix2 p j) + x1 (ix2 0 j)) q := by
  unfold Cert.KernelIdeal.Gen.k3_pay1
  rw [shapeCast_self, shapeCast_self]
  refine (lsm_core _ _ _ _ _ _ _ p q).trans ?_
  exact congrArg (fun r => logSoftmaxRow r q) (funext fun k => congrArg (x0 (ix2 p k) + ·) (broadcastTo_1b_ab_apply x1 _ p k))

end Cert.GcnRows
-- ==== Proof.BiasRelu.lean ====
import proofs.«102166_j78735340470401_1_alg».proof.Proof.Gen.KernelIdeal.Frame
import proofs.«102166_j78735340470401_1_alg».proof.Proof.RowLaws
import Idealize.ShloMosaic.Lib.Pipeline.Value
import Idealize.ShloMosaic.Lib.ValueIdx

/-!
# Bias and rectifier after the first aggregation, as one whole-array function

The kernel adds a 1×128 bias row to every row of a 100000×128 array and clamps at zero from below, ten thousand rows
at a time; grid point `t` handles rows `10000 t … 10000 t + 9999`. Each written entry is `max (a (r, q) + b (0, q)) 0`,
the change of float format on the way out being the identity at the exact values; the ten row blocks tile the output.
-/

set_option maxRecDepth 16384

noncomputable section

namespace Cert.KernelIdeal.BiasRelu

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the output: the input's entry plus the bias of column q, clamped at zero from below. -/
def fn (a : S100000x128.Idx → EReal) (b : S1x128.Idx → EReal) : S100000x128.Idx → EReal :=
  fun i => max (a (ix2 (⟨(i 0).val, (i 0).isLt⟩ : Fin 100000) (⟨(i 1).val, (i 1).isLt⟩ : Fin 128)) + b (ix2 (0 : Fin 1) (⟨(i 1).val, (i 1).isLt⟩ : Fin 128))) 0

/-- The printed index maps over the grid: the input's and the output's row blocks move together, every other block
    index is zero, and the output's row block index is below ten. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the output is some grid point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- An entry of the input's block at point `t` is the input array's entry in the same row of the output's block. -/
theorem in_row (c : Dev nD) (t : Fin cfg1.N) (p : Fin 10000) (q j : Fin 128) :
    iblk1 V c 0 t (ix2 p j) = V c main_v45 (ix2 (⟨((((cfg1.win 2).blk t).view.emb (ix2 p q)) 0).val, ((((cfg1.win 2).blk t).view.emb (ix2 p q)) 0).isLt⟩ : Fin 100000) j) := by
  obtain ⟨e0, e1, e2, e3, e4, e5⟩ := idx_facts t
  show V c main_v45 (((cfg1.win 0).blk t).view.emb (ix2 p j)) = _
  refine congrArg (V c main_v45) (funext fun a => Fin.ext ?_)
  match a with
  | ⟨0, _⟩ => show win1_0.index t (0 : Fin 2) * 10000 + 1 * p.val = win1_2.index t (0 : Fin 2) * 10000 + 1 * p.val; omega
  | ⟨1, _⟩ => show win1_0.index t (1 : Fin 2) * 128 + 1 * j.val = j.val; omega

/-- The bias row's block is the whole bias row at every point. -/
theorem in_bias (c : Dev nD) (t : Fin cfg1.N) (j : Fin 128) :
    iblk1 V c 1 t (ix2 (0 : Fin 1) j) = V c main_v46 (ix2 (0 : Fin 1) j) := by
  obtain ⟨e0, e1, e2, e3, e4, e5⟩ := idx_facts t
  show V c main_v46 (((cfg1.win 1).blk t).view.emb (ix2 (0 : Fin 1) j)) = _
  refine congrArg (V c main_v46) (funext fun a => Fin.ext ?_)
  match a with
  | ⟨0, _⟩ => show win1_1.index t (0 : Fin 2) * 1 + 1 * 0 = 0; omega
  | ⟨1, _⟩ => show win1_1.index t (1 : Fin 2) * 128 + 1 * j.val = j.val; omega

/-- The column of an entry of the output's block is its column in the array. -/
theorem out_col (t : Fin cfg1.N) (p : Fin 10000) (q : Fin 128) :
    (⟨((((cfg1.win 2).blk t).view.emb (ix2 p q)) 1).val, ((((cfg1.win 2).blk t).view.emb (ix2 p q)) 1).isLt⟩ : Fin 128) = q := by
  obtain ⟨e0, e1, e2, e3, e4, e5⟩ := idx_facts t
  refine Fin.ext ?_
  show win1_2.index t (1 : Fin 2) * 128 + 1 * q.val = q.val
  omega

/-- What grid point `t` writes back is block `t` of `fn` of the arrays the region found. -/
theorem flushed_eq (c : Dev nD) (t : Fin cfg1.N) :
    (dat1 V c).flushed 2 t = ((cfg1.win 2).blk t).view.read (Elt Ideal) (fn (V c main_v45) (V c main_v46)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q) = fn (V c main_v45) (V c main_v46) (((cfg1.win 2).blk t).view.emb (ix2 p q))
  refine (Cert.GcnRows.pay_relu_apply (iblk1 V c 0 t) (iblk1 V c 1 t) p q).trans ?_
  unfold fn
  rw [in_row V c t p q q, in_bias V c t q, out_col t p q]

/-- An index of the output is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The ten row blocks cover the output: row `r` lies in block `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array is `fn` of the two arrays the region found on entry. -/
theorem final (c : Dev nD) : (dat1 V c).arrAt 2 cfg1.N = fn (V c main_v45) (V c main_v46) :=
  (dat1 V c).arrAt_eq_of_cover 2 (fn (V c main_v45) (V c main_v46)) (fun t _ => flushed_eq V c t) cover

end Cert.KernelIdeal.BiasRelu

end
-- ==== Proof.BiasLogSoftmax.lean ====
import proofs.«102166_j78735340470401_1_alg».proof.Proof.Gen.KernelIdeal.Frame
import proofs.«102166_j78735340470401_1_alg».proof.Proof.RowLaws
import Idealize.ShloMosaic.Lib.Pipeline.Value
import Idealize.ShloMosaic.Lib.ValueIdx

/-!
# Bias and row-wise log-softmax after the second aggregation, as one whole-array function

The kernel adds a 1×33 bias row to every row of a 100000×33 array and replaces each row by its log-softmax (the row
minus its maximum, minus the logarithm of the sum of the exponentials of that difference), ten thousand rows at a time.
A row's result depends on that row and the bias only, so the ten row blocks, which tile the output, are blocks of one
whole-array function.
-/

set_option maxRecDepth 16384

noncomputable section

namespace Cert.KernelIdeal.BiasLogSoftmax

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the output: the log-softmax, at column q, of row r of the input plus the bias row. -/
def fn (a : S100000x33.Idx → EReal) (b : S1x33.Idx → EReal) : S100000x33.Idx → EReal :=
  fun i => Cert.GcnRows.logSoftmaxRow (fun j => a (ix2 (⟨(i 0).val, (i 0).isLt⟩ : Fin 100000) j) + b (ix2 (0 : Fin 1) j)) (⟨(i 1).val, (i 1).isLt⟩ : Fin 33)

/-- The printed index maps over the grid: the input's and the output's row blocks move together, every other block
    index is zero, and the output's row block index is below ten. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block of the output is some grid point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- An entry of the input's block at point `t` is the input array's entry in the same row of the output's block. -/
theorem in_row (c : Dev nD) (t : Fin cfg3.N) (p : Fin 10000) (q j : Fin 33) :
    iblk3 V c 0 t (ix2 p j) = V c main_v61 (ix2 (⟨((((cfg3.win 2).blk t).view.emb (ix2 p q)) 0).val, ((((cfg3.win 2).blk t).view.emb (ix2 p q)) 0).isLt⟩ : Fin 100000) j) := by
  obtain ⟨e0, e1, e2, e3, e4, e5⟩ := idx_facts t
  show V c main_v61 (((cfg3.win 0).blk t).view.emb (ix2 p j)) = _
  refine congrArg (V c main_v61) (funext fun a => Fin.ext ?_)
  match a with
  | ⟨0, _⟩ => show win3_0.index t (0 : Fin 2) * 10000 + 1 * p.val = win3_2.index t (0 : Fin 2) * 10000 + 1 * p.val; omega
  | ⟨1, _⟩ => show win3_0.index t (1 : Fin 2) * 33 + 1 * j.val = j.val; omega

/-- The bias row's block is the whole bias row at every point. -/
theorem in_bias (c : Dev nD) (t : Fin cfg3.N) (j : Fin 33) :
    iblk3 V c 1 t (ix2 (0 : Fin 1) j) = V c main_v62 (ix2 (0 : Fin 1) j) := by
  obtain ⟨e0, e1, e2, e3, e4, e5⟩ := idx_facts t
  show V c main_v62 (((cfg3.win 1).blk t).view.emb (ix2 (0 : Fin 1) j)) = _
  refine congrArg (V c main_v62) (funext fun a => Fin.ext ?_)
  match a with
  | ⟨0, _⟩ => show win3_1.index t (0 : Fin 2) * 1 + 1 * 0 = 0; omega
  | ⟨1, _⟩ => show win3_1.index t (1 : Fin 2) * 33 + 1 * j.val = j.val; omega

/-- The column of an entry of the output's block is its column in the array. -/
theorem out_col (t : Fin cfg3.N) (p : Fin 10000) (q : Fin 33) :
    (⟨((((cfg3.win 2).blk t).view.emb (ix2 p q)) 1).val, ((((cfg3.win 2).blk t).view.emb (ix2 p q)) 1).isLt⟩ : Fin 33) = q := by
  obtain ⟨e0, e1, e2, e3, e4, e5⟩ := idx_facts t
  refine Fin.ext ?_
  show win3_2.index t (1 : Fin 2) * 33 + 1 * q.val = q.val
  omega

/-- What grid point `t` writes back is block `t` of `fn` of the arrays the region found. -/
theorem flushed_eq (c : Dev nD) (t : Fin cfg3.N) :
    (dat3 V c).flushed 2 t = ((cfg3.win 2).blk t).view.read (Elt Ideal) (fn (V c main_v61) (V c main_v62)) := by
  show (cfg3.win 2).cut (grid3.coords t) ((dat3 V c).after 2 t) = _
  rw [after3_2]
  unfold out3_2
  rw [View.canon_unit_zero hz]
  simp only [View.ld_unit_zero (S := S10000x33) hz, View.ld_unit_zero (S := S1x33) hz]
  funext j
  obtain ⟨p, q, rfl⟩ : ∃ (p : Fin 10000) (q : Fin 33), j = ix2 p q := ⟨j 0, j 1, eq_ix2 j⟩
  show k3_pay1 (F := Ideal) (iblk3 V c 0 t) (iblk3 V c 1 t) (ix2 p q) = fn (V c main_v61) (V c main_v62) (((cfg3.win 2).blk t).view.emb (ix2 p q))
  refine (Cert.GcnRows.pay_lsm_apply (iblk3 V c 0 t) (iblk3 V c 1 t) p q).trans ?_
  unfold fn
  rw [out_col t p q]
  refine congrArg (fun row => Cert.GcnRows.logSoftmaxRow row q) (funext fun j => ?_)
  rw [in_row V c t p q j, in_bias V c t j]

/-- An index of the output is in point `t`'s block iff each coordinate is in the block's range on its axis. -/
theorem mem_blk (t : Fin cfg3.N) (i : S100000x33.Idx) :
    i ∈ ((cfg3.win 2).blk t).view.set ↔ ∀ a : Fin 2, win3_2.index t a * S10000x33.size a ≤ (i a).val ∧ (i a).val < win3_2.index t a * S10000x33.size a + S10000x33.size a := by
  show i ∈ ((View.whole main_v63).slice (win3_2.rect t)).set ↔ _
  rw [View.set_slice_whole, Rect.mem_set_unit]
  exact Iff.rfl

/-- The ten row blocks cover the output: row `r` lies in block `r / 10000`. -/
theorem cover (i : S100000x33.Idx) :
    ∃ t : Fin cfg3.N, (cfg3.win 2).flush t = true ∧ i ∈ ((cfg3.win 2).blk t).view.set := by
  have hi0 : (i 0).val < 100000 := (i 0).isLt
  have hi1 : (i 1).val < 33 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 33 ≤ (i 1).val ∧ (i 1).val < win3_2.index t (1 : Fin 2) * 33 + 33; omega

/-- After the region the output array is `fn` of the two arrays the region found on entry. -/
theorem final (c : Dev nD) : (dat3 V c).arrAt 2 cfg3.N = fn (V c main_v61) (V c main_v62) :=
  (dat3 V c).arrAt_eq_of_cover 2 (fn (V c main_v61) (V c main_v62)) (fun t _ => flushed_eq V c t) cover

end Cert.KernelIdeal.BiasLogSoftmax

end
-- ==== Proof.RowLawsRef.lean ====
/-
  Index-level laws of the reference's two row-wise stages: bias then rectifier, and bias then log-softmax over a row
  of 33. Each stage is written as a function of the array it is applied to and of the bias (`refRelu`, `refLsm`), the
  reference's own stage is that function of the stage before it (`ref_relu_eq`, `ref_lsm_eq`, by unfolding), and the
  function read at one index (row, column) is the same expression of the row that the kernel's payload is: for the
  rectifier `max (x + b) 0`, for the log-softmax the row function `logSoftmaxRow`. The reference joins the row maximum
  once more with minus infinity and starts its row sum from zero; on the extended reals `max ⊥ x = x` and `0 + s = s`
  hold everywhere, so no finiteness is assumed anywhere in this file.
-/
import proofs.«102166_j78735340470401_1_alg».proof.Proof.RowLaws
import proofs.«102166_j78735340470401_1_alg».proof.Proof.GenPRefRead
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.GcnRows

open Idealize.ShloMosaic Idealize.ShloMosaic.ValueIdx
open scoped BigOperators

/-! ## The host's broadcasts, read at an index -/

/-- A length-`b` vector placed on axis 1 of `[1, b]` reads, at `(u, c)`, the vector at `c`. -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A row `[1, b]` broadcast over the rows of `[a, b]` reads, at `(p, c)`, the row at `c`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`a` vector placed on axis 0 of the column `[a, 1]` reads, at `(p, u)`, the vector at `p`. -/
theorem broadcastInDim_a_a1_apply {α : Type} {a : ℕ} (m : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h m (ix2 p u) = m (ix1 p) := by
  refine broadcastInDim_apply _ h m (ix2 p u) (ix1 p) fun ax => ?_
  match ax with
  | ⟨0, _⟩ =>
    show p.val = if a = 1 then 0 else p.val
    split
    · have := p.isLt; omega
    · rfl

/-- A column `[a, 1]` broadcast over the columns of `[a, b]` reads, at `(p, c)`, the column at `p`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast to any shape reads the scalar everywhere. -/
theorem broadcastInDim_scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-! ## The host's reductions along the rows of a matrix -/

/-- The host's maximum along the rows from minus infinity, at row `p`, is the fold of `max` from `⊥` over the row. -/
theorem hostRowMax_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf v (constant (F := Ideal) ⟨0, ![]⟩ .f32 0xFF800000#32) h' hu (ix1 p)
      = (Finset.univ : Finset (Fin b)).fold max ⊥ (fun k => v (ix2 p k)) := by
  refine (Host.reduce_eq_fold_single FloatOps.maximumf v _ h' h hu (ix1 p)).trans ?_
  show (Finset.univ : Finset (Fin b)).fold max (Ideal.ofBits .f32 0xFF800000#32) (v ∘ h.lift (ix1 p)) = _
  rw [ofBits_neg_inf_f32]
  exact congrArg (fun f => Finset.fold max ⊥ f (Finset.univ : Finset (Fin b))) (funext fun k => congrArg v (lift_row h p k))

/-- The host's sum along the rows from zero, at row `p`, is the sum over the row. -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) v (constant (F := Ideal) ⟨0, ![]⟩ .f32 0x00000000#32) h' hu (ix1 p)
      = ∑ k : Fin b, v (ix2 p k) := by
  show Ideal.hostReduceAdd h' v (Ideal.ofBits .f32 0x00000000#32) (ix1 p) = _
  rw [Ideal.hostReduceAdd_single h' h, Ideal.ofBits_zero_f32, zero_add]
  exact Finset.sum_congr rfl fun k _ => congrArg v (lift_row h p k)

/-! ## The host's exponential and logarithm, read at an index -/

/-- The host's exponential at an index is the exponential of the element. -/
theorem hostExp_apply {s : Shape} {φ : FTy} (x : FVec Ideal s φ) (i : s.Idx) : Host.exp x i = Ideal.exp (x i) := rfl

/-- The host's logarithm at an index is the logarithm of the element. -/
theorem hostLog_apply {s : Shape} {φ : FTy} (x : FVec Ideal s φ) (i : s.Idx) : Host.log x i = Ideal.log (x i) := rfl

/-! ## The reference's two row-wise stages as functions of their inputs -/

/-- The reference's bias-then-rectifier stage: the bias, placed on axis 1 and broadcast over the rows, added to the
    array, then the maximum with a zero array. -/
def refRelu (a : FVec Ideal Cert.ReferenceIdeal.S100000x128 .f32) (b : FVec Ideal Cert.ReferenceIdeal.S128 .f32) :
    FVec Ideal Cert.ReferenceIdeal.S100000x128 .f32 :=
  maximumf
    (addf a (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b)))
    (broadcastInDim Cert.ReferenceIdeal.S100000x128 ![] Cert.ReferenceIdeal.Gen.bcast_S_S100000x128
      (constant (F := Ideal) Cert.ReferenceIdeal.S_ .f32 0x00000000#32))

/-- At `(r, q)` it is the array's element plus the bias at column `q`, cut below at zero. -/
theorem refRelu_apply (a : FVec Ideal Cert.ReferenceIdeal.S100000x128 .f32) (b : FVec Ideal Cert.ReferenceIdeal.S128 .f32)
    (r : Fin 100000) (q : Fin 128) : refRelu a b (ix2 r q) = max (a (ix2 r q) + b (ix1 q)) 0 := by
  unfold refRelu
  refine (maximumf_apply _ _ _).trans (congrArg₂ max ?_ ?_)
  · refine (addf_apply _ _ _).trans (congrArg (a (ix2 r q) + ·) ?_)
    exact (broadcastInDim_1b_ab_apply _ _ r q).trans (broadcastInDim_b_1b_apply b _ 0 q)
  · exact (broadcastInDim_scalar_apply _ _ _).trans Ideal.ofBits_zero_f32

/-- The reference's log-softmax of an array: the row maxima from minus infinity, joined once more with minus
    infinity, subtracted; then the logarithm of the row sums of the exponentials subtracted. -/
def refLogSoftmax (y : FVec Ideal Cert.ReferenceIdeal.S100000x33 .f32) : FVec Ideal Cert.ReferenceIdeal.S100000x33 .f32 :=
  subf
    (subf y (broadcastInDim Cert.ReferenceIdeal.S100000x33 ![0, 1] Cert.ReferenceIdeal.Gen.bcast_S100000x1_S100000x33_0_1
      (broadcastInDim Cert.ReferenceIdeal.S100000x1 ![0] Cert.ReferenceIdeal.Gen.bcast_S100000_S100000x1_0
        (maximumf
          (broadcastInDim Cert.ReferenceIdeal.S100000 ![] Cert.ReferenceIdeal.Gen.bcast_S_S100000
            (constant (F := Ideal) Cert.ReferenceIdeal.S_ .f32 0xFF800000#32))
          (Host.reduce FloatOps.maximumf y (constant (F := Ideal) Cert.ReferenceIdeal.S_ .f32 0xFF800000#32)
            Cert.ReferenceIdeal.Gen.reducesTo_S100000x33_S100000_d1 Cert.ReferenceIdeal.Gen.h_S_)))))
    (broadcastInDim Cert.ReferenceIdeal.S100000x33 ![0, 1] Cert.ReferenceIdeal.Gen.bcast_S100000x1_S100000x33_0_1
      (Host.log (broadcastInDim Cert.ReferenceIdeal.S100000x1 ![0] Cert.ReferenceIdeal.Gen.bcast_S100000_S100000x1_0
        (Host.reduceAdd (F := Ideal)
          (Host.exp (subf y (broadcastInDim Cert.ReferenceIdeal.S100000x33 ![0, 1] Cert.ReferenceIdeal.Gen.bcast_S100000x1_S100000x33_0_1
            (broadcastInDim Cert.ReferenceIdeal.S100000x1 ![0] Cert.ReferenceIdeal.Gen.bcast_S100000_S100000x1_0
              (maximumf
                (broadcastInDim Cert.ReferenceIdeal.S100000 ![] Cert.ReferenceIdeal.Gen.bcast_S_S100000
                  (constant (F := Ideal) Cert.ReferenceIdeal.S_ .f32 0xFF800000#32))
                (Host.reduce FloatOps.maximumf y (constant (F := Ideal) Cert.ReferenceIdeal.S_ .f32 0xFF800000#32)
                  Cert.ReferenceIdeal.Gen.reducesTo_S100000x33_S100000_d1 Cert.ReferenceIdeal.Gen.h_S_))))))
          (constant (F := Ideal) Cert.ReferenceIdeal.S_ .f32 0x00000000#32)
          Cert.ReferenceIdeal.Gen.reducesTo_S100000x33_S100000_d1 Cert.ReferenceIdeal.Gen.h_S_))))

/-- At `(r, q)` it is the row function of row `r`. -/
theorem refLogSoftmax_apply (y : FVec Ideal Cert.ReferenceIdeal.S100000x33 .f32) (r : Fin 100000) (q : Fin 33) :
    refLogSoftmax y (ix2 r q) = logSoftmaxRow (fun j => y (ix2 r j)) q := by
  have hR : Cert.ReferenceIdeal.S100000x33.Reduces [1] Cert.ReferenceIdeal.S100000 := by decide
  have hM : ∀ c : Fin 33,
      broadcastInDim Cert.ReferenceIdeal.S100000x33 ![0, 1] Cert.ReferenceIdeal.Gen.bcast_S100000x1_S100000x33_0_1
        (broadcastInDim Cert.ReferenceIdeal.S100000x1 ![0] Cert.ReferenceIdeal.Gen.bcast_S100000_S100000x1_0
          (maximumf
            (broadcastInDim Cert.ReferenceIdeal.S100000 ![] Cert.ReferenceIdeal.Gen.bcast_S_S100000
              (constant (F := Ideal) Cert.ReferenceIdeal.S_ .f32 0xFF800000#32))
            (Host.reduce FloatOps.maximumf y (constant (F := Ideal) Cert.ReferenceIdeal.S_ .f32 0xFF800000#32)
              Cert.ReferenceIdeal.Gen.reducesTo_S100000x33_S100000_d1 Cert.ReferenceIdeal.Gen.h_S_))) (ix2 r c)
        = (Finset.univ : Finset (Fin 33)).fold max ⊥ (fun k => y (ix2 r k)) := fun c => by
    refine ((broadcastInDim_a1_ab_apply _ _ r c).trans (broadcastInDim_a_a1_apply _ _ r 0)).trans ?_
    refine (maximumf_apply _ _ _).trans ?_
    refine (congrArg₂ max ((broadcastInDim_scalar_apply _ _ _).trans ofBits_neg_inf_f32)
      (hostRowMax_apply y _ hR _ r)).trans ?_
    exact max_eq_right bot_le
  unfold refLogSoftmax logSoftmaxRow
  refine (subf_apply _ _ _).trans (congrArg₂ (· - ·) ?_ ?_)
  · exact (subf_apply _ _ _).trans (congrArg (y (ix2 r q) - ·) (hM q))
  · refine (broadcastInDim_a1_ab_apply _ _ r q).trans ?_
    refine (hostLog_apply _ _).trans (congrArg Ideal.log ((broadcastInDim_a_a1_apply _ _ r 0).trans ?_))
    refine (hostRowSum_apply _ _ hR _ r).trans (Finset.sum_congr rfl fun k _ => ?_)
    refine (hostExp_apply _ _).trans (congrArg Ideal.exp ?_)
    exact (subf_apply _ _ _).trans (congrArg (y (ix2 r k) - ·) (hM k))

/-- The reference's bias-then-log-softmax stage: the bias, placed on axis 1 and broadcast over the rows, added to the
    array, then the log-softmax. -/
def refLsm (a : FVec Ideal Cert.ReferenceIdeal.S100000x33 .f32) (b : FVec Ideal Cert.ReferenceIdeal.S33 .f32) :
    FVec Ideal Cert.ReferenceIdeal.S100000x33 .f32 :=
  refLogSoftmax (addf a (broadcastInDim Cert.ReferenceIdeal.S100000x33 ![0, 1] Cert.ReferenceIdeal.Gen.bcast_S1x33_S100000x33_0_1
    (broadcastInDim Cert.ReferenceIdeal.S1x33 ![1] Cert.ReferenceIdeal.Gen.bcast_S33_S1x33_1 b)))

/-- At `(r, q)` it is the row function of row `r` of the array plus the bias. -/
theorem refLsm_apply (a : FVec Ideal Cert.ReferenceIdeal.S100000x33 .f32) (b : FVec Ideal Cert.ReferenceIdeal.S33 .f32)
    (r : Fin 100000) (q : Fin 33) : refLsm a b (ix2 r q) = logSoftmaxRow (fun j => a (ix2 r j) + b (ix1 j)) q := by
  unfold refLsm
  refine (refLogSoftmax_apply _ r q).trans ?_
  refine congrArg (fun row => logSoftmaxRow row q) (funext fun k => ?_)
  refine (addf_apply _ _ _).trans (congrArg (a (ix2 r k) + ·) ?_)
  exact (broadcastInDim_1b_ab_apply _ _ r k).trans (broadcastInDim_b_1b_apply b _ 0 k)

/-! ## The reference's stages are these functions of the stages before them -/

/-- The reference's rectifier stage is `refRelu` of the stage before it and the bias argument. -/
theorem ref_relu_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal)) :
    Cert.ReferenceIdeal.ReadP.val_main_v47 (F := Ideal) x0 x1 x2 x3
      = refRelu (Cert.ReferenceIdeal.ReadP.val_main_v43 (F := Ideal) x0 x1 x2) x3 := rfl

/-- The reference's log-softmax stage is `refLsm` of the stage before it and the bias argument. -/
theorem ref_lsm_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x33, .f32⟩ : BufTy).Contents (Elt Ideal))
    (x5 : (⟨Cert.ReferenceIdeal.S33, .f32⟩ : BufTy).Contents (Elt Ideal)) :
    Cert.ReferenceIdeal.ReadP.val_main_v95 (F := Ideal) x0 x1 x2 x3 x4 x5
      = refLsm (Cert.ReferenceIdeal.ReadP.val_main_v91 (F := Ideal) x0 x1 x2 x3 x4) x5 := rfl

end Cert.GcnRows
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.RefCopies.lean ====
import proofs.«102166_j78735340470401_1_alg».proof.Proof.GenPRefRead

/-!
# The reference prepares its edge data twice

Each of the reference's two layers builds the index vectors and the degree normalisation from the edge array anew,
by the same operations. The second copies are therefore the first ones, as functions of the edge array: unfolding
both stage by stage leaves one and the same term.
-/

noncomputable section

namespace Cert.ReferenceIdeal.RefCopies

open Cert.ReferenceIdeal Cert.ReferenceIdeal.Gen Cert.ReferenceIdeal.ReadP
open Idealize.ShloMosaic

variable (x1 : (⟨S2x1600000, .i32⟩ : BufTy).Contents (Elt Ideal))

/-- The second layer's source index vector is the first layer's. -/
theorem src_again : val_main_v53 (F := Ideal) x1 = val_main_v5 (F := Ideal) x1 := by
  simp only [val_main_v48, val_main_v49, val_main_v50, val_main_v51, val_main_v52, val_main_v53, val_main_v54, val_main_v0, val_main_v1, val_main_v2, val_main_v3, val_main_v4, val_main_v5, val_main_v6]

/-- The second layer's destination index vector is the first layer's. -/
theorem dst_again : val_main_v54 (F := Ideal) x1 = val_main_v6 (F := Ideal) x1 := by
  simp only [val_main_v48, val_main_v49, val_main_v50, val_main_v51, val_main_v52, val_main_v53, val_main_v54, val_main_v0, val_main_v1, val_main_v2, val_main_v3, val_main_v4, val_main_v5, val_main_v6]

/-- The second layer's per-edge norm is the first layer's. -/
theorem norm_again : val_main_v77 (F := Ideal) x1 = val_main_v29 (F := Ideal) x1 := by
  simp only [val_main_cst_9, val_main_v55, val_main_cst_10, val_main_v56, val_main_v57, val_main_v58, val_main_cst_11, val_main_v59, val_main_v60, val_main_v61, val_main_cst_12, val_main_call2_v0, val_main_call2_v1, val_main_v62, val_main_c_13, val_main_v63, val_main_v64, val_main_c_14, val_main_v65, val_main_v66, val_main_v67, val_main_v68, val_main_v69, val_main_c_15, val_main_v70, val_main_v71, val_main_c_16, val_main_v72, val_main_v73, val_main_v74, val_main_v75, val_main_v76, val_main_v77, val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, src_again, dst_again]

/-- … and so is its column form. -/
theorem normcol_again : val_main_v86 (F := Ideal) x1 = val_main_v38 (F := Ideal) x1 := by
  simp only [val_main_v86, val_main_v38, norm_again]

end Cert.ReferenceIdeal.RefCopies

end
-- ==== Proof.KernelValue.lean ====
import proofs.«102166_j78735340470401_1_alg».proof.Proof.HostEdges
import proofs.«102166_j78735340470401_1_alg».proof.Proof.FirstProduct
import proofs.«102166_j78735340470401_1_alg».proof.Proof.SecondProduct
import proofs.«102166_j78735340470401_1_alg».proof.Proof.BiasRelu
import proofs.«102166_j78735340470401_1_alg».proof.Proof.BiasLogSoftmax
import proofs.«102166_j78735340470401_1_alg».proof.Proof.RowLaws
import proofs.«102166_j78735340470401_1_alg».proof.Proof.RowLawsRef
import proofs.«102166_j78735340470401_1_alg».proof.Proof.LibPlainDot
import proofs.«102166_j78735340470401_1_alg».proof.Proof.LibMergeRows
import proofs.«102166_j78735340470401_1_alg».proof.Proof.RefCopies

/-!
# The kernel program's result is the reference's

The two-layer graph convolution, boundary by boundary. Write `P h` for one round of message passing: gather the rows
of `h` at the edges' sources, scale each by the edge's norm, and add them up at the edges' destinations. The
program computes

  h1 = x · W1 (kernel),  a1 = P h1 (host),  r = max (a1 + b1) 0 (kernel),
  h2 = r · W2 (kernel),  a2 = P h2 (host),  out = log-softmax of the rows of a2 + b2 (kernel),

and the reference computes the same chain with host operations only. At the exact values a kernel's product into a
zero accumulator is the host's product, and the two row-wise kernels are the reference's broadcast, add, maximum and
log-softmax read row by row; the message-passing rounds are the very same host operations on both sides, applied to
equal arrays. So each buffer of the kernel program, at the boundary where it is complete, is the reference's stage of
the same name of the argument arrays, and the result buffer is the reference's result.
-/

set_option maxRecDepth 16384

noncomputable section

namespace Cert.KernelIdeal.GcnValue

open Cert.KernelIdeal Cert.KernelIdeal.Gen Cert.KernelIdeal.GcnEdges
open Idealize.ShloMosaic Idealize.ShloMosaic.TcCoe Idealize.SL.Sem Idealize.ShloMosaic.StableHlo
open Idealize.ShloMosaic.ValueIdx
open Cert.ReferenceIdeal.ReadP
open scoped BigOperators

variable (m : (ℓ : Loc nD τ sig) → Buf (Elt Ideal) ℓ) (ρ : Dev nD → PrngReg) (c : Dev nD)

/-! ## The two products against the reference's -/

/-- Entry by entry the first product is the host's product of the same two arrays. -/
theorem prod1_eq (a : FVec Ideal Cert.ReferenceIdeal.S100000x256 .f32) (b : FVec Ideal Cert.ReferenceIdeal.S256x128 .f32) :
    FirstProduct.prod a b = val_main_v30 (F := Ideal) a b := by
  funext i
  obtain ⟨p, q, rfl⟩ : ∃ (p : Fin 100000) (q : Fin 128), i = ix2 p q := ⟨i 0, i 1, eq_ix2 i⟩
  unfold val_main_v30
  exact (Cert.Lib.PlainDot.dotGeneral_apply (a := 100000) (c := 256) (b := 128)
    Cert.ReferenceIdeal.Facts₀.dot_S100000x256_S256x128_S100000x128_1_0_0_1_n_n_wf none a b p q).symm

/-- Entry by entry the second product is the host's product of the same two arrays. -/
theorem prod2_eq (a : FVec Ideal Cert.ReferenceIdeal.S100000x128 .f32) (b : FVec Ideal Cert.ReferenceIdeal.S128x33 .f32) :
    SecondProduct.prod a b
      = Host.dotGeneral (F := Ideal) Cert.ReferenceIdeal.dot_S100000x128_S128x33_S100000x33_1_0_0_1_n_n none a b := by
  funext i
  obtain ⟨p, q, rfl⟩ : ∃ (p : Fin 100000) (q : Fin 33), i = ix2 p q := ⟨i 0, i 1, eq_ix2 i⟩
  exact (Cert.Lib.PlainDot.dotGeneral_apply (a := 100000) (c := 128) (b := 33)
    Cert.ReferenceIdeal.Facts₀.dot_S100000x128_S128x33_S100000x33_1_0_0_1_n_n_wf none a b p q).symm

/-! ## Layer one -/

/-- After the first kernel: h1 = x · W1. -/
theorem W4_h1 : W4 m ρ c (Proc.devRef .tc main_v33) = val_main_v30 (F := Ideal) (x0 m c) (x2 m c) := by
  refine (W4_arr m ρ c 2).trans ?_
  rw [FirstProduct.final (V3 m ρ) c]
  show FirstProduct.prod (W3 m ρ c (Proc.devRef .tc main_v31)) (W3 m ρ c (Proc.devRef .tc main_v32)) = _
  rw [W3_feat m ρ c, W3_w1 m ρ c]
  exact prod1_eq _ _

/-- After the next stretch: a1 = P h1, the reference's first aggregation. -/
theorem W5_agg1 : W5 m ρ c (Proc.devRef .tc main_v45) = val_main_v43 (F := Ideal) (x0 m c) (x1 m c) (x2 m c) := by
  show StableHlo.after hostOps1 (W4 m ρ c) (Proc.devRef .tc main_v45) = _
  after_results_simp
  rw [W4_h1 m ρ c, W4_src m ρ c, W4_dst m ρ c, W4_norm m ρ c]
  simp only [val_main_v43, val_main_v41, val_main_cst_8, val_main_v42, val_main_v40, val_main_v37, val_main_v36, val_main_v35,
    val_main_v32, val_main_v31, val_main_c_6, val_main_v34, val_main_v33, val_main_c_7, val_main_v39]
  try rfl

/-- … and the first bias as a 1×128 row. -/
theorem W5_b1 : W5 m ρ c (Proc.devRef .tc main_v46) = shapeCast S1x128 (x3 m c) shapeCasts_S128_S1x128 := by
  show StableHlo.after hostOps1 (W4 m ρ c) (Proc.devRef .tc main_v46) = _
  after_results_simp
  show shapeCast S1x128 (W4 m ρ c (Proc.devRef .tc main_arg3)) shapeCasts_S128_S1x128 = _
  rw [W4_x3 m ρ c]

/-- After the second kernel: r = max (a1 + b1) 0, the reference's rectified first layer. -/
theorem W6_r : W6 m ρ c (Proc.devRef .tc main_v47) = val_main_v47 (F := Ideal) (x0 m c) (x1 m c) (x2 m c) (x3 m c) := by
  refine (W6_arr m ρ c 2).trans ?_
  rw [BiasRelu.final (V5 m ρ) c]
  show BiasRelu.fn (W5 m ρ c (Proc.devRef .tc main_v45)) (W5 m ρ c (Proc.devRef .tc main_v46)) = _
  rw [W5_agg1 m ρ c, W5_b1 m ρ c, Cert.GcnRows.ref_relu_eq]
  funext i
  obtain ⟨r, q, rfl⟩ : ∃ (r : Fin 100000) (q : Fin 128), i = ix2 r q := ⟨i 0, i 1, eq_ix2 i⟩
  rw [Cert.GcnRows.refRelu_apply]
  unfold BiasRelu.fn
  show max (val_main_v43 (F := Ideal) (x0 m c) (x1 m c) (x2 m c) (ix2 r q) + shapeCast S1x128 (x3 m c) shapeCasts_S128_S1x128 (ix2 (0 : Fin 1) q)) 0 = _
  rw [Cert.Lib.MergeRows.row_apply]

/-! ## Layer two -/

/-- The one host operation before the third kernel does not touch r … -/
theorem W7_r : W7 m ρ c (Proc.devRef .tc main_v47) = val_main_v47 (F := Ideal) (x0 m c) (x1 m c) (x2 m c) (x3 m c) :=
  (show W7 m ρ c (Proc.devRef .tc main_v47) = W6 m ρ c (Proc.devRef .tc main_v47) from by stretch_keeps).trans (W6_r m ρ c)

/-- … and leaves the second weight array as the product's right operand. -/
theorem W7_w2 : (W7 m ρ c (Proc.devRef .tc main_v48) : S128x33.Idx → EReal) = x4 m c := by
  show StableHlo.after hostOps2 (W6 m ρ c) (Proc.devRef .tc main_v48) = _
  after_results_simp
  rw [W6_x4 m ρ c]
  first | done | rfl

/-- After the third kernel: h2 = r · W2. -/
theorem W8_h2 : W8 m ρ c (Proc.devRef .tc main_v49) = val_main_v78 (F := Ideal) (x0 m c) (x1 m c) (x2 m c) (x3 m c) (x4 m c) := by
  refine (W8_arr m ρ c 2).trans ?_
  rw [SecondProduct.final (V7 m ρ) c]
  show SecondProduct.prod (W7 m ρ c (Proc.devRef .tc main_v47)) (W7 m ρ c (Proc.devRef .tc main_v48)) = _
  rw [W7_r m ρ c, W7_w2 m ρ c]
  unfold val_main_v78
  exact prod2_eq _ _

/-- After the last stretch: a2 = P h2, the reference's second aggregation. -/
theorem W9_agg2 : W9 m ρ c (Proc.devRef .tc main_v61) = val_main_v91 (F := Ideal) (x0 m c) (x1 m c) (x2 m c) (x3 m c) (x4 m c) := by
  show StableHlo.after hostOps3 (W8 m ρ c) (Proc.devRef .tc main_v61) = _
  after_results_simp
  rw [W8_h2 m ρ c, W8_src m ρ c, W8_dst m ρ c, W8_norm m ρ c]
  simp only [val_main_v91, val_main_v89, val_main_cst_19, val_main_v90, val_main_v88, val_main_v85, val_main_v84, val_main_v83,
    val_main_v80, val_main_v79, val_main_c_17, val_main_v82, val_main_v81, val_main_c_18, val_main_v87,
    Cert.ReferenceIdeal.RefCopies.src_again, Cert.ReferenceIdeal.RefCopies.dst_again,
    Cert.ReferenceIdeal.RefCopies.normcol_again]
  try rfl

/-- … and the second bias as a 1×33 row. -/
theorem W9_b2 : W9 m ρ c (Proc.devRef .tc main_v62) = shapeCast S1x33 (x5 m c) shapeCasts_S33_S1x33 := by
  show StableHlo.after hostOps3 (W8 m ρ c) (Proc.devRef .tc main_v62) = _
  after_results_simp
  show shapeCast S1x33 (W8 m ρ c (Proc.devRef .tc main_arg5)) shapeCasts_S33_S1x33 = _
  rw [W8_x5 m ρ c]

/-- After the last kernel: the result is the reference's result of the same six arrays. -/
theorem W10_out : W10 m ρ c (Proc.devRef .tc main_v63)
    = val_main_v95 (F := Ideal) (x0 m c) (x1 m c) (x2 m c) (x3 m c) (x4 m c) (x5 m c) := by
  refine (W10_arr m ρ c 2).trans ?_
  rw [BiasLogSoftmax.final (V9 m ρ) c]
  show BiasLogSoftmax.fn (W9 m ρ c (Proc.devRef .tc main_v61)) (W9 m ρ c (Proc.devRef .tc main_v62)) = _
  rw [W9_agg2 m ρ c, W9_b2 m ρ c, Cert.GcnRows.ref_lsm_eq]
  funext i
  obtain ⟨r, q, rfl⟩ : ∃ (r : Fin 100000) (q : Fin 33), i = ix2 r q := ⟨i 0, i 1, eq_ix2 i⟩
  rw [Cert.GcnRows.refLsm_apply]
  unfold BiasLogSoftmax.fn
  refine congrArg (fun row => Cert.GcnRows.logSoftmaxRow row q) (funext fun j => ?_)
  show val_main_v91 (F := Ideal) (x0 m c) (x1 m c) (x2 m c) (x3 m c) (x4 m c) (ix2 r j) + shapeCast S1x33 (x5 m c) shapeCasts_S33_S1x33 (ix2 (0 : Fin 1) j) = _
  rw [Cert.Lib.MergeRows.row_apply]

end Cert.KernelIdeal.GcnValue

end
-- ==== Proof.lean ====
/-
  A two-layer graph convolution with a log-softmax head: the kernel program against its reference.

  Both programs compute, from node features x, an edge list, and two weight / bias pairs,

    out = log-softmax of the rows of  P (max (P (x · W1) + b1) 0 · W2) + b2,

  where P is one round of message passing over the edge list with self-loops, each message scaled by the inverse
  square roots of the degrees of the edge's two end points. The kernel program runs the two products, the bias +
  rectifier and the bias + log-softmax as grid kernels over blocks of ten thousand rows and leaves the message passing
  to host operations; the reference uses host operations throughout.

  At the exact values the two are the same function of the arguments, operation by operation: no rounding, so the
  kernel's narrowing of its matrix operands is the identity and a product into a zero accumulator is the host's
  product; the row-wise kernels are the reference's broadcasts, sums and maxima read row by row; and the message
  passing is the same host operations on equal arrays. No finiteness of the inputs is used. The kernel program's
  idealization rewrote nothing, so the preservation claim is trivial.

  The frames of the two kernel programs are the generated ones; the reference's frame is its run with the result
  dropped. For the value claim both runs are posted at one term, the reference's last stage of the kernel side's
  argument arrays: the kernel program's result is brought to it boundary by boundary (KernelValue), the reference's
  by its run, read stretch by stretch (ReferenceRun), and the agreement of the arguments.
-/
import proofs.«102166_j78735340470401_1_alg».proof.Defs
import proofs.«102166_j78735340470401_1_alg».proof.Proof.Gen.Kernel
import proofs.«102166_j78735340470401_1_alg».proof.Proof.Gen.Kernel.Frame
import proofs.«102166_j78735340470401_1_alg».proof.Proof.Gen.KernelIdeal
import proofs.«102166_j78735340470401_1_alg».proof.Proof.Gen.KernelIdeal.Frame
import proofs.«102166_j78735340470401_1_alg».proof.Proof.Gen.ReferenceIdeal
import proofs.«102166_j78735340470401_1_alg».proof.Proof.Gen.Pre_finite_inputs
import proofs.«102166_j78735340470401_1_alg».proof.Proof.GenPKernelRun
import proofs.«102166_j78735340470401_1_alg».proof.Proof.ReferenceRun
import proofs.«102166_j78735340470401_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both programs end with the reference's last stage of the (agreeing) argument arrays in their result buffers. -/
theorem algebraic : Cert.algebraic_KernelIdeal_ReferenceIdeal := by
  intro m ρ m' ρ' _ hagree
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨((h c).1).trans (Cert.KernelIdeal.GcnValue.W10_out m ρ c), (h c).2⟩)
      (Cert.KernelIdeal.GenP.run_result (F := Ideal) m ρ)
  · refine (θ_run Cert.ReferenceIdeal.defs _ _).mono (fun r h c => ⟨?_, (h c).2⟩)
      (Cert.ReferenceIdeal.RefRun.run m' ρ')
    rw [(h c).1, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
